-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x2 : Shape := ⟨2, ![2097152, 2]⟩
abbrev S2097152x3 : Shape := ⟨2, ![2097152, 3]⟩
abbrev S1x8x2048x2048 : Shape := ⟨4, ![1, 8, 2048, 2048]⟩
abbrev S16x11 : Shape := ⟨2, ![16, 11]⟩
abbrev S16 : Shape := ⟨1, ![16]⟩
abbrev S16x16 : Shape := ⟨2, ![16, 16]⟩
abbrev S3x16 : Shape := ⟨2, ![3, 16]⟩
abbrev S3 : Shape := ⟨1, ![3]⟩
abbrev S_ : Shape := ⟨0, ![]⟩

class Facts : Prop where
  bcast_S_S2097152x2 : S_.BroadcastsInDim S2097152x2 (![] : Fin 0 → Fin S2097152x2.rank)
  reducesTo_S2097152x2_S_d0_1 : S2097152x2.ReducesTo [0, 1] S_
  h_S_ : 0 < S_.numel
  bcast_S_S2097152x3 : S_.BroadcastsInDim S2097152x3 (![] : Fin 0 → Fin S2097152x3.rank)
  reducesTo_S2097152x3_S_d0_1 : S2097152x3.ReducesTo [0, 1] S_
  bcast_S_S1x8x2048x2048 : S_.BroadcastsInDim S1x8x2048x2048 (![] : Fin 0 → Fin S1x8x2048x2048.rank)
  reducesTo_S1x8x2048x2048_S_d0_1_2_3 : S1x8x2048x2048.ReducesTo [0, 1, 2, 3] S_
  bcast_S_S16x11 : S_.BroadcastsInDim S16x11 (![] : Fin 0 → Fin S16x11.rank)
  reducesTo_S16x11_S_d0_1 : S16x11.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S3x16 : S_.BroadcastsInDim S3x16 (![] : Fin 0 → Fin S3x16.rank)
  reducesTo_S3x16_S_d0_1 : S3x16.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S3x16 .f32) (main_arg8 : FVec F S3 .f32) (main_v33 : IVec S_ 1) : IVec S_ 1 :=
  let main_v34 : FVec F S3x16 .f32 := Host.absf main_arg7
  let main_cst_12 : FVec F S_ .f32 := constant S_ .f32 0x7F800000#32
  let main_v35 : FVec F S3x16 .f32 := broadcastInDim S3x16 ![] bcast_S_S3x16 main_cst_12
  let main_v36 : IVec S3x16 1 := cmpf .olt main_v34 main_v35
  let main_c_13 : IVec S_ 1 := constantI S_ 1 1#1
  let main_v37 : IVec S_ 1 := (fun x v => Host.reduce IntOp.andi x v reducesTo_S3x16_S_d0_1 h_S_) main_v36 main_c_13
  let main_v38 : IVec S_ 1 := andi main_v33 main_v37
  let main_v39 : FVec F S3 .f32 := Host.absf main_arg8
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg4 : FVec F S16 .f32) (main_arg5 : FVec F S16x16 .f32) (main_arg6 : FVec F S16 .f32) (main_arg7 : FVec F S3x16 .f32) (main_arg8 : FVec F S3 .f32) (main_v13 : IVec S_ 1) (main_v16 : IVec S16x11 1) : IVec S_ 1 :=
  let main_c_5 : IVec S_ 1 := constantI S_ 1 1#1
  let main_v17 : IVec S_ 1 := (fun x v => Host.reduce IntOp.andi x v reducesTo_S16x11_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg5
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_v33

def fn {F : FTy → Type} [FloatOps F] (main_arg0 : FVec F S2097152x2 .f32) (main_arg1 : FVec F S2097152x3 .f32) (main_arg2 : FVec F S1x8x2048x2048 .f32) (main_arg3 : FVec F S16x11 .f32) (main_arg4 : FVec F S16 .f32) (main_arg5 : FVec F S16x16 .f32) (main_arg6 : FVec F S16 .f32) (main_arg7 : FVec F S3x16 .f32) (main_arg8 : FVec F S3 .f32) : IVec S_ 1 :=
  let main_v0 : FVec F S2097152x2 .f32 := Host.absf main_arg0
  let main_cst : FVec F S_ .f32 := constant S_ .f32 0x7F800000#32
  let main_v1 : FVec F S2097152x2 .f32 := broadcastInDim S2097152x2 ![] bcast_S_S2097152x2 main_cst
  let main_v2 : IVec S2097152x2 1 := cmpf .olt main_v0 main_v1
  let main_c : IVec S_ 1 := constantI S_ 1 1#1
  let main_v3 : IVec S_ 1 := (fun x v => Host.reduce IntOp.andi x v reducesTo_S2097152x2_S_d0_1 h_S_) main_v2 main_c
  let main_v4 : FVec F S2097152x3 .f32 := Host.absf main_arg1
  let main_cst_0 : FVec F S_ .f32 := constant S_ .f32 0x7F800000#32
  let main_v5 : FVec F S2097152x3 .f32 := broadcastInDim S2097152x3 ![] bcast_S_S2097152x3 main_cst_0
  let main_v6 : IVec S2097152x3 1 := cmpf .olt main_v4 main_v5
  let main_c_1 : IVec S_ 1 := constantI S_ 1 1#1
  let main_v7 : IVec S_ 1 := (fun x v => Host.reduce IntOp.andi x v reducesTo_S2097152x3_S_d0_1 h_S_) main_v6 main_c_1
  let main_v8 : IVec S_ 1 := andi main_v3 main_v7
  let main_v9 : FVec F S1x8x2048x2048 .f32 := Host.absf main_arg2
  let main_cst_2 : FVec F S_ .f32 := constant S_ .f32 0x7F800000#32
  let main_v10 : FVec F S1x8x2048x2048 .f32 := broadcastInDim S1x8x2048x2048 ![] bcast_S_S1x8x2048x2048 main_cst_2
  let main_v11 : IVec S1x8x2048x2048 1 := cmpf .olt main_v9 main_v10
  let main_c_3 : IVec S_ 1 := constantI S_ 1 1#1
  let main_v12 : IVec S_ 1 := (fun x v => Host.reduce IntOp.andi x v reducesTo_S1x8x2048x2048_S_d0_1_2_3 h_S_) main_v11 main_c_3
  let main_v13 : IVec S_ 1 := andi main_v8 main_v12
  let main_v14 : FVec F S16x11 .f32 := Host.absf main_arg3
  let main_cst_4 : FVec F S_ .f32 := constant S_ .f32 0x7F800000#32
  let main_v15 : FVec F S16x11 .f32 := broadcastInDim S16x11 ![] bcast_S_S16x11 main_cst_4
  let main_v16 : IVec S16x11 1 := cmpf .olt main_v14 main_v15
  fn_part1 (F := F) main_arg4 main_arg5 main_arg6 main_arg7 main_arg8 main_v13 main_v16
-- ==== Kernel.lean ====
abbrev S2097152x2 : Shape := ⟨2, ![2097152, 2]⟩
abbrev S2097152x3 : Shape := ⟨2, ![2097152, 3]⟩
abbrev S1x8x2048x2048 : Shape := ⟨4, ![1, 8, 2048, 2048]⟩
abbrev S16x11 : Shape := ⟨2, ![16, 11]⟩
abbrev S16 : Shape := ⟨1, ![16]⟩
abbrev S16x16 : Shape := ⟨2, ![16, 16]⟩
abbrev S3x16 : Shape := ⟨2, ![3, 16]⟩
abbrev S3 : Shape := ⟨1, ![3]⟩
abbrev S8x2048x2048 : Shape := ⟨3, ![8, 2048, 2048]⟩
abbrev S2048x2048x8 : Shape := ⟨3, ![2048, 2048, 8]⟩
abbrev S2097152x1 : Shape := ⟨2, ![2097152, 1]⟩
abbrev S2097152 : Shape := ⟨1, ![2097152]⟩
abbrev S_ : Shape := ⟨0, ![]⟩
abbrev S2097152x8 : Shape := ⟨2, ![2097152, 8]⟩
abbrev S8x2097152 : Shape := ⟨2, ![8, 2097152]⟩
abbrev S3x2097152 : Shape := ⟨2, ![3, 2097152]⟩
abbrev S16x8 : Shape := ⟨2, ![16, 8]⟩
abbrev S16x3 : Shape := ⟨2, ![16, 3]⟩
abbrev S8x32768 : Shape := ⟨2, ![8, 32768]⟩
abbrev S3x32768 : Shape := ⟨2, ![3, 32768]⟩
abbrev S16x32768 : Shape := ⟨2, ![16, 32768]⟩
abbrev S16x1 : Shape := ⟨2, ![16, 1]⟩
abbrev S3x1 : Shape := ⟨2, ![3, 1]⟩

abbrev nBuf : Space → Nat
  | .hbm => 178
  | .vmem => 13
  | .smem => 0
  | _ => 0

abbrev hbmTy0_0 (i : Nat) : BufTy := match i % 128 with
  | 0 => ⟨S2097152x2, .f32⟩
  | 1 => ⟨S2097152x3, .f32⟩
  | 2 => ⟨S1x8x2048x2048, .f32⟩
  | 3 => ⟨S16x11, .f32⟩
  | 4 => ⟨S16, .f32⟩
  | 5 => ⟨S16x16, .f32⟩
  | 6 => ⟨S16, .f32⟩
  | 7 => ⟨S3x16, .f32⟩
  | 8 => ⟨S3, .f32⟩
  | 9 => ⟨S8x2048x2048, .f32⟩
  | 10 => ⟨S2048x2048x8, .f32⟩
  | 11 => ⟨S2097152x1, .f32⟩
  | 12 => ⟨S2097152, .f32⟩
  | 13 => ⟨S_, .f32⟩
  | 14 => ⟨S2097152, .f32⟩
  | 15 => ⟨S2097152, .f32⟩
  | 16 => ⟨S_, .f32⟩
  | 17 => ⟨S2097152, .f32⟩
  | 18 => ⟨S2097152, .f32⟩
  | 19 => ⟨S_, .f32⟩
  | 20 => ⟨S2097152, .f32⟩
  | 21 => ⟨S2097152, .f32⟩
  | 22 => ⟨S_, .f32⟩
  | 23 => ⟨S_, .i32⟩
  | 24 => ⟨S_, .f32⟩
  | 25 => ⟨S2097152, .f32⟩
  | 26 => ⟨S2097152, .f32⟩
  | 27 => ⟨S_, .f32⟩
  | 28 => ⟨S2097152, .f32⟩
  | 29 => ⟨S2097152, .f32⟩
  | 30 => ⟨S2097152x1, .f32⟩
  | 31 => ⟨S2097152, .f32⟩
  | 32 => ⟨S_, .f32⟩
  | 33 => ⟨S2097152, .f32⟩
  | 34 => ⟨S2097152, .f32⟩
  | 35 => ⟨S_, .f32⟩
  | 36 => ⟨S2097152, .f32⟩
  | 37 => ⟨S2097152, .f32⟩
  | 38 => ⟨S_, .f32⟩
  | 39 => ⟨S2097152, .f32⟩
  | 40 => ⟨S2097152, .f32⟩
  | 41 => ⟨S_, .f32⟩
  | 42 => ⟨S_, .i32⟩
  | 43 => ⟨S_, .f32⟩
  | 44 => ⟨S2097152, .f32⟩
  | 45 => ⟨S2097152, .f32⟩
  | 46 => ⟨S_, .f32⟩
  | 47 => ⟨S2097152, .f32⟩
  | 48 => ⟨S2097152, .f32⟩
  | 49 => ⟨S2097152, .f32⟩
  | 50 => ⟨S2097152, .f32⟩
  | 51 => ⟨S2097152, .f32⟩
  | 52 => ⟨S2097152x1, .f32⟩
  | 53 => ⟨S2097152, .f32⟩
  | 54 => ⟨S2097152x1, .f32⟩
  | 55 => ⟨S2097152, .i32⟩
  | 56 => ⟨S2097152, .i32⟩
  | 57 => ⟨S_, .i32⟩
  | 58 => ⟨S2097152, .i32⟩
  | 59 => ⟨S2097152, .i32⟩
  | 60 => ⟨S_, .i32⟩
  | 61 => ⟨S2097152, .i32⟩
  | 62 => ⟨S2097152, .i32⟩
  | 63 => ⟨S_, .i32⟩
  | 64 => ⟨S2097152, .i32⟩
  | 65 => ⟨S2097152, .i32⟩
  | 66 => ⟨S_, .i32⟩
  | 67 => ⟨S2097152, .i32⟩
  | 68 => ⟨S2097152, .i32⟩
  | 69 => ⟨S_, .i32⟩
  | 70 => ⟨S2097152, .i32⟩
  | 71 => ⟨S2097152, .i1⟩
  | 72 => ⟨S_, .i32⟩
  | 73 => ⟨S2097152, .i32⟩
  | 74 => ⟨S2097152, .i32⟩
  | 75 => ⟨S2097152, .i32⟩
  | 76 => ⟨S_, .i32⟩
  | 77 => ⟨S2097152, .i32⟩
  | 78 => ⟨S2097152, .i1⟩
  | 79 => ⟨S_, .i32⟩
  | 80 => ⟨S2097152, .i32⟩
  | 81 => ⟨S2097152, .i32⟩
  | 82 => ⟨S2097152, .i32⟩
  | 83 => ⟨S2097152x1, .i32⟩
  | 84 => ⟨S2097152x1, .i32⟩
  | 85 => ⟨S2097152x2, .i32⟩
  | 86 => ⟨S2097152x8, .f32⟩
  | 87 => ⟨S_, .i32⟩
  | 88 => ⟨S2097152, .i32⟩
  | 89 => ⟨S2097152, .i1⟩
  | 90 => ⟨S_, .i32⟩
  | 91 => ⟨S2097152, .i32⟩
  | 92 => ⟨S2097152, .i32⟩
  | 93 => ⟨S2097152, .i32⟩
  | 94 => ⟨S_, .i32⟩
  | 95 => ⟨S2097152, .i32⟩
  | 96 => ⟨S2097152, .i1⟩
  | 97 => ⟨S_, .i32⟩
  | 98 => ⟨S2097152, .i32⟩
  | 99 => ⟨S2097152, .i32⟩
  | 100 => ⟨S2097152, .i32⟩
  | 101 => ⟨S2097152x1, .i32⟩
  | 102 => ⟨S2097152x1, .i32⟩
  | 103 => ⟨S2097152x2, .i32⟩
  | 104 => ⟨S2097152x8, .f32⟩
  | 105 => ⟨S_, .i32⟩
  | 106 => ⟨S2097152, .i32⟩
  | 107 => ⟨S2097152, .i1⟩
  | 108 => ⟨S_, .i32⟩
  | 109 => ⟨S2097152, .i32⟩
  | 110 => ⟨S2097152, .i32⟩
  | 111 => ⟨S2097152, .i32⟩
  | 112 => ⟨S_, .i32⟩
  | 113 => ⟨S2097152, .i32⟩
  | 114 => ⟨S2097152, .i1⟩
  | 115 => ⟨S_, .i32⟩
  | 116 => ⟨S2097152, .i32⟩
  | 117 => ⟨S2097152, .i32⟩
  | 118 => ⟨S2097152, .i32⟩
  | 119 => ⟨S2097152x1, .i32⟩
  | 120 => ⟨S2097152x1, .i32⟩
  | 121 => ⟨S2097152x2, .i32⟩
  | 122 => ⟨S2097152x8, .f32⟩
  | 123 => ⟨S_, .i32⟩
  | 124 => ⟨S2097152, .i32⟩
  | 125 => ⟨S2097152, .i1⟩
  | 126 => ⟨S_, .i32⟩
  | 127 => ⟨S2097152, .i32⟩
  | _ => ⟨S2097152x2, .f32⟩

abbrev hbmTy0_1 (i : Nat) : BufTy := match i % 128 with
  | 0 => ⟨S2097152, .i32⟩
  | 1 => ⟨S2097152, .i32⟩
  | 2 => ⟨S_, .i32⟩
  | 3 => ⟨S2097152, .i32⟩
  | 4 => ⟨S2097152, .i1⟩
  | 5 => ⟨S_, .i32⟩
  | 6 => ⟨S2097152, .i32⟩
  | 7 => ⟨S2097152, .i32⟩
  | 8 => ⟨S2097152, .i32⟩
  | 9 => ⟨S2097152x1, .i32⟩
  | 10 => ⟨S2097152x1, .i32⟩
  | 11 => ⟨S2097152x2, .i32⟩
  | 12 => ⟨S2097152x8, .f32⟩
  | 13 => ⟨S_, .f32⟩
  | 14 => ⟨S2097152x1, .f32⟩
  | 15 => ⟨S2097152x1, .f32⟩
  | 16 => ⟨S2097152x8, .f32⟩
  | 17 => ⟨S2097152x8, .f32⟩
  | 18 => ⟨S_, .f32⟩
  | 19 => ⟨S2097152x1, .f32⟩
  | 20 => ⟨S2097152x1, .f32⟩
  | 21 => ⟨S2097152x8, .f32⟩
  | 22 => ⟨S2097152x8, .f32⟩
  | 23 => ⟨S2097152x8, .f32⟩
  | 24 => ⟨S2097152x8, .f32⟩
  | 25 => ⟨S_, .f32⟩
  | 26 => ⟨S2097152x1, .f32⟩
  | 27 => ⟨S2097152x1, .f32⟩
  | 28 => ⟨S2097152x8, .f32⟩
  | 29 => ⟨S2097152x8, .f32⟩
  | 30 => ⟨S2097152x8, .f32⟩
  | 31 => ⟨S_, .f32⟩
  | 32 => ⟨S2097152x1, .f32⟩
  | 33 => ⟨S2097152x1, .f32⟩
  | 34 => ⟨S2097152x8, .f32⟩
  | 35 => ⟨S2097152x8, .f32⟩
  | 36 => ⟨S2097152x8, .f32⟩
  | 37 => ⟨S2097152x8, .f32⟩
  | 38 => ⟨S2097152x8, .f32⟩
  | 39 => ⟨S2097152x8, .f32⟩
  | 40 => ⟨S2097152x8, .f32⟩
  | 41 => ⟨S2097152x8, .f32⟩
  | 42 => ⟨S2097152x8, .f32⟩
  | 43 => ⟨S2097152x8, .f32⟩
  | 44 => ⟨S8x2097152, .f32⟩
  | 45 => ⟨S3x2097152, .f32⟩
  | 46 => ⟨S16x8, .f32⟩
  | 47 => ⟨S16x3, .f32⟩
  | 48 => ⟨S3x2097152, .f32⟩
  | 49 => ⟨S2097152x3, .f32⟩
  | _ => ⟨S2097152x2, .f32⟩

abbrev hbmTy (i : Nat) : BufTy := match i / 128 with
  | 0 => hbmTy0_0 i
  | 1 => hbmTy0_1 i
  | _ => ⟨S2097152x2, .f32⟩

abbrev bufTy : (tb : Table) → Fin (tcTables nBuf tb) → BufTy
  | .hbm, ⟨i, _⟩ => hbmTy i
  | .local _ .vmem, ⟨0, _⟩ => ⟨S8x32768, .f32⟩
  | .local _ .vmem, ⟨1, _⟩ => ⟨S8x32768, .f32⟩
  | .local _ .vmem, ⟨2, _⟩ => ⟨S3x32768, .f32⟩
  | .local _ .vmem, ⟨3, _⟩ => ⟨S3x32768, .f32⟩
  | .local _ .vmem, ⟨4, _⟩ => ⟨S16x8, .f32⟩
  | .local _ .vmem, ⟨5, _⟩ => ⟨S16x3, .f32⟩
  | .local _ .vmem, ⟨6, _⟩ => ⟨S16, .f32⟩
  | .local _ .vmem, ⟨7, _⟩ => ⟨S16x16, .f32⟩
  | .local _ .vmem, ⟨8, _⟩ => ⟨S16, .f32⟩
  | .local _ .vmem, ⟨9, _⟩ => ⟨S3x16, .f32⟩
  | .local _ .vmem, ⟨10, _⟩ => ⟨S3, .f32⟩
  | .local _ .vmem, ⟨11, _⟩ => ⟨S3x32768, .f32⟩
  | .local _ .vmem, ⟨12, _⟩ => ⟨S3x32768, .f32⟩
  | _, _ => ⟨S2097152x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_v14 : Ref sig .tc := ⟨.hbm, 34, rfl⟩
abbrev main_cst_4 : Ref sig .tc := ⟨.hbm, 35, rfl⟩
abbrev main_v15 : Ref sig .tc := ⟨.hbm, 36, rfl⟩
abbrev main_v16 : Ref sig .tc := ⟨.hbm, 37, rfl⟩
abbrev main_cst_5 : Ref sig .tc := ⟨.hbm, 38, rfl⟩
abbrev main_v17 : Ref sig .tc := ⟨.hbm, 39, rfl⟩
abbrev main_v18 : Ref sig .tc := ⟨.hbm, 40, rfl⟩
abbrev main_cst_6 : Ref sig .tc := ⟨.hbm, 41, rfl⟩
abbrev main_c_7 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_8 : Ref sig .tc := ⟨.hbm, 57, rfl⟩
abbrev main_v28 : Ref sig .tc := ⟨.hbm, 58, rfl⟩
abbrev main_v29 : Ref sig .tc := ⟨.hbm, 59, rfl⟩
abbrev main_c_9 : Ref sig .tc := ⟨.hbm, 60, rfl⟩
abbrev main_v30 : Ref sig .tc := ⟨.hbm, 61, rfl⟩
abbrev main_v31 : Ref sig .tc := ⟨.hbm, 62, rfl⟩
abbrev main_c_10 : Ref sig .tc := ⟨.hbm, 63, rfl⟩
abbrev main_v32 : Ref sig .tc := ⟨.hbm, 64, rfl⟩
abbrev main_v33 : Ref sig .tc := ⟨.hbm, 65, rfl⟩
abbrev main_c_11 : Ref sig .tc := ⟨.hbm, 66, rfl⟩
abbrev main_v34 : Ref sig .tc := ⟨.hbm, 67, rfl⟩
abbrev main_v35 : Ref sig .tc := ⟨.hbm, 68, rfl⟩
abbrev main_c_12 : Ref sig .tc := ⟨.hbm, 69, rfl⟩
abbrev main_v36 : Ref sig .tc := ⟨.hbm, 70, rfl⟩
abbrev main_v37 : Ref sig .tc := ⟨.hbm, 71, rfl⟩
abbrev main_c_13 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_c_14 : Ref sig .tc := ⟨.hbm, 76, rfl⟩
abbrev main_v41 : Ref sig .tc := ⟨.hbm, 77, rfl⟩
abbrev main_v42 : Ref sig .tc := ⟨.hbm, 78, rfl⟩
abbrev main_c_15 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_c_16 : Ref sig .tc := ⟨.hbm, 87, rfl⟩
abbrev main_v50 : Ref sig .tc := ⟨.hbm, 88, rfl⟩
abbrev main_v51 : Ref sig .tc := ⟨.hbm, 89, rfl⟩
abbrev main_c_17 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_c_18 : Ref sig .tc := ⟨.hbm, 94, rfl⟩
abbrev main_v55 : Ref sig .tc := ⟨.hbm, 95, rfl⟩
abbrev main_v56 : Ref sig .tc := ⟨.hbm, 96, rfl⟩
abbrev main_c_19 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_c_20 : Ref sig .tc := ⟨.hbm, 105, rfl⟩
abbrev main_v64 : Ref sig .tc := ⟨.hbm, 106, rfl⟩
abbrev main_v65 : Ref sig .tc := ⟨.hbm, 107, rfl⟩
abbrev main_c_21 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_c_22 : Ref sig .tc := ⟨.hbm, 112, rfl⟩
abbrev main_v69 : Ref sig .tc := ⟨.hbm, 113, rfl⟩
abbrev main_v70 : Ref sig .tc := ⟨.hbm, 114, rfl⟩
abbrev main_c_23 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_c_24 : Ref sig .tc := ⟨.hbm, 123, rfl⟩
abbrev main_v78 : Ref sig .tc := ⟨.hbm, 124, rfl⟩
abbrev main_v79 : Ref sig .tc := ⟨.hbm, 125, rfl⟩
abbrev main_c_25 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_c_26 : Ref sig .tc := ⟨.hbm, 130, rfl⟩
abbrev main_v83 : Ref sig .tc := ⟨.hbm, 131, rfl⟩
abbrev main_v84 : Ref sig .tc := ⟨.hbm, 132, rfl⟩
abbrev main_c_27 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_28 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_cst_29 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_cst_30 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_cst_31 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S3x32768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S1x8x2048x2048_S8x2048x2048 : S1x8x2048x2048.ShapeCasts S8x2048x2048
  transposes_S8x2048x2048_S2048x2048x8_1_2_0 : S8x2048x2048.Transposes [1, 2, 0] S2048x2048x8
  slices_S2097152x2_S2097152x1_0_0 : S2097152x2.Slices ![0, 0] S2097152x1
  shapeCasts_S2097152x1_S2097152 : S2097152x1.ShapeCasts S2097152
  bcast_S_S2097152 : S_.BroadcastsInDim S2097152 (![] : Fin 0 → Fin S2097152.rank)
  slices_S2097152x2_S2097152x1_0_1 : S2097152x2.Slices ![0, 1] S2097152x1
  bcast_S2097152_S2097152x1_0 : S2097152.BroadcastsInDim S2097152x1 (![0] : Fin 1 → Fin S2097152x1.rank)
  concatenates_S2097152x1_S2097152x1_S2097152x2_d1 : Shape.Concatenates [S2097152x1, S2097152x1] S2097152x2 1
  bcast_S_S2097152x1 : S_.BroadcastsInDim S2097152x1 (![] : Fin 0 → Fin S2097152x1.rank)
  bcast_S2097152x1_S2097152x8_0_1 : S2097152x1.BroadcastsInDim S2097152x8 (![0, 1] : Fin 2 → Fin S2097152x8.rank)
  transposes_S2097152x8_S8x2097152_1_0 : S2097152x8.Transposes [1, 0] S8x2097152
  transposes_S2097152x3_S3x2097152_1_0 : S2097152x3.Transposes [1, 0] S3x2097152
  slices_S16x11_S16x8_0_0 : S16x11.Slices ![0, 0] S16x8
  slices_S16x11_S16x3_0_8 : S16x11.Slices ![0, 8] S16x3
  inb_S8x32768_S8x32768_0_0 : ∀ a, (![0, 0] : Fin 2 → Nat) a + S8x32768.size a ≤ S8x32768.size a
  h_S8x32768 : 0 < S8x32768.numel
  shapeCasts_S8x32768_S8x32768 : S8x32768.ShapeCasts S8x32768
  bitsLt_bf16_f32 : FTy.bits .bf16 < FTy.bits .f32
  inb_S3x32768_S3x32768_0_0 : ∀ a, (![0, 0] : Fin 2 → Nat) a + S3x32768.size a ≤ S3x32768.size a
  h_S3x32768 : 0 < S3x32768.numel
  shapeCasts_S3x32768_S3x32768 : S3x32768.ShapeCasts S3x32768
  inb_S16x8_S16x8_0_0 : ∀ a, (![0, 0] : Fin 2 → Nat) a + S16x8.size a ≤ S16x8.size a
  h_S16x8 : 0 < S16x8.numel
  shapeCasts_S16x8_S16x8 : S16x8.ShapeCasts S16x8
  inb_S16x3_S16x3_0_0 : ∀ a, (![0, 0] : Fin 2 → Nat) a + S16x3.size a ≤ S16x3.size a
  h_S16x3 : 0 < S16x3.numel
  shapeCasts_S16x3_S16x3 : S16x3.ShapeCasts S16x3
  inb_S16_S16_0 : ∀ a, (![0] : Fin 1 → Nat) a + S16.size a ≤ S16.size a
  h_S16 : 0 < S16.numel
  shapeCasts_S16_S16x1 : S16.ShapeCasts S16x1
  broadcasts_S16x1_S16x32768 : S16x1.Broadcasts S16x32768
  inb_S16x16_S16x16_0_0 : ∀ a, (![0, 0] : Fin 2 → Nat) a + S16x16.size a ≤ S16x16.size a
  h_S16x16 : 0 < S16x16.numel
  inb_S3x16_S3x16_0_0 : ∀ a, (![0, 0] : Fin 2 → Nat) a + S3x16.size a ≤ S3x16.size a
  h_S3x16 : 0 < S3x16.numel
  inb_S3_S3_0 : ∀ a, (![0] : Fin 1 → Nat) a + S3.size a ≤ S3.size a
  h_S3 : 0 < S3.numel
  shapeCasts_S3_S3x1 : S3.ShapeCasts S3x1
  broadcasts_S3x1_S3x32768 : S3x1.Broadcasts S3x32768
  transposes_S3x2097152_S2097152x3_1_0 : S3x2097152.Transposes [1, 0] S2097152x3
  gather_S2048x2048x8_S2097152x2_S2097152x8_1_01_n_n_01_1_118_wf : GatherDims.WF S2048x2048x8 S2097152x2 S2097152x8 [1] [0, 1] [] [0, 1] [] 1 ![1, 1, 8]
  dot_S16x8_S8x32768_S16x32768_1_0_0_1_n_n_wf : DotDims.WF S16x8 S8x32768 S16x32768 [1] [0] [0] [1] [] []
  dot_S16x3_S3x32768_S16x32768_1_0_0_1_n_n_wf : DotDims.WF S16x3 S3x32768 S16x32768 [1] [0] [0] [1] [] []
  dot_S16x16_S16x32768_S16x32768_1_0_0_1_n_n_wf : DotDims.WF S16x16 S16x32768 S16x32768 [1] [0] [0] [1] [] []
  dot_S3x16_S16x32768_S3x32768_1_0_0_1_n_n_wf : DotDims.WF S3x16 S16x32768 S3x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32768.size a ≤ S8x2097152.size a
  hwx0_0 : ∀ i : grid0.Coords, EltTy.bits .f32 = 32 ∨ (Rect.block (s := S8x2097152) S8x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x32768.size a ≤ S3x2097152.size a
  hwx0_1 : ∀ i : grid0.Coords, EltTy.bits .f32 = 32 ∨ (Rect.block (s := S3x2097152) S3x32768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x8.size a ≤ S16x8.size a
  hwx0_2 : ∀ i : grid0.Coords, EltTy.bits .f32 = 32 ∨ (Rect.block (s := S16x8) S16x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x3.size a ≤ S16x3.size a
  hwx0_3 : ∀ i : grid0.Coords, EltTy.bits .f32 = 32 ∨ (Rect.block (s := S16x3) S16x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x16.size a ≤ S16x16.size a
  hwx0_5 : ∀ i : grid0.Coords, EltTy.bits .f32 = 32 ∨ (Rect.block (s := S16x16) S16x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16.size a ≤ S16.size a
  hwx0_6 : ∀ i : grid0.Coords, EltTy.bits .f32 = 32 ∨ (Rect.block (s := S16) S16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x16.size a ≤ S3x16.size a
  hwx0_7 : ∀ i : grid0.Coords, EltTy.bits .f32 = 32 ∨ (Rect.block (s := S3x16) S3x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3.size a ≤ S3.size a
  hwx0_8 : ∀ i : grid0.Coords, EltTy.bits .f32 = 32 ∨ (Rect.block (s := S3) S3.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S3x32768.size a ≤ S3x2097152.size a
  hwx0_9 : ∀ i : grid0.Coords, EltTy.bits .f32 = 32 ∨ (Rect.block (s := S3x2097152) S3x32768.size (cc0_transform_9 i) (hinb0_9 i)).WholeWords (EltTy.packing .f32)

variable [Facts₀]

def gather_S2048x2048x8_S2097152x2_S2097152x8_1_01_n_n_01_1_118 : GatherDims S2048x2048x8 S2097152x2 S2097152x8 where
  offsetDims := [1]
  collapsedSliceDims := [0, 1]
  operandBatchingDims := []
  startIndicesBatchingDims := []
  startIndexMap := [0, 1]
  indexVectorDim := 1
  sliceSizes := ![1, 1, 8]
  wf := gather_S2048x2048x8_S2097152x2_S2097152x8_1_01_n_n_01_1_118_wf
def dot_S16x8_S8x32768_S16x32768_1_0_0_1_n_n : DotDims S16x8 S8x32768 S16x32768 where
  lhsContracting := [1]
  rhsContracting := [0]
  lhsNonContracting := [0]
  rhsNonContracting := [1]
  lhsBatch := []
  rhsBatch := []
  wf := dot_S16x8_S8x32768_S16x32768_1_0_0_1_n_n_wf
def dot_S16x3_S3x32768_S16x32768_1_0_0_1_n_n : DotDims S16x3 S3x32768 S16x32768 where
  lhsContracting := [1]
  rhsContracting := [0]
  lhsNonContracting := [0]
  rhsNonContracting := [1]
  lhsBatch := []
  rhsBatch := []
  wf := dot_S16x3_S3x32768_S16x32768_1_0_0_1_n_n_wf
def dot_S16x16_S16x32768_S16x32768_1_0_0_1_n_n : DotDims S16x16 S16x32768 S16x32768 where
  lhsContracting := [1]
  rhsContracting := [0]
  lhsNonContracting := [0]
  rhsNonContracting := [1]
  lhsBatch := []
  rhsBatch := []
  wf := dot_S16x16_S16x32768_S16x32768_1_0_0_1_n_n_wf
def dot_S3x16_S16x32768_S3x32768_1_0_0_1_n_n : DotDims S3x16 S16x32768 S3x32768 where
  lhsContracting := [1]
  rhsContracting := [0]
  lhsNonContracting := [0]
  rhsNonContracting := [1]
  lhsBatch := []
  rhsBatch := []
  wf := dot_S3x16_S16x32768_S3x32768_1_0_0_1_n_n_wf

abbrev win0_0 : Pipeline.Window sig grid0 :=
  Pipeline.Window.ofSpec (Memref.whole main_v119) S8x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v120) S3x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v121) S16x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v122) S16x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S3x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S3.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v123) S3x32768.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2097152x2 : Shape := ⟨2, ![2097152, 2]⟩
abbrev S2097152x3 : Shape := ⟨2, ![2097152, 3]⟩
abbrev S1x8x2048x2048 : Shape := ⟨4, ![1, 8, 2048, 2048]⟩
abbrev S16x11 : Shape := ⟨2, ![16, 11]⟩
abbrev S16 : Shape := ⟨1, ![16]⟩
abbrev S16x16 : Shape := ⟨2, ![16, 16]⟩
abbrev S3x16 : Shape := ⟨2, ![3, 16]⟩
abbrev S3 : Shape := ⟨1, ![3]⟩
abbrev S8x2048x2048 : Shape := ⟨3, ![8, 2048, 2048]⟩
abbrev S2048x2048x8 : Shape := ⟨3, ![2048, 2048, 8]⟩
abbrev S2097152x1 : Shape := ⟨2, ![2097152, 1]⟩
abbrev S2097152 : Shape := ⟨1, ![2097152]⟩
abbrev S_ : Shape := ⟨0, ![]⟩
abbrev S2097152x8 : Shape := ⟨2, ![2097152, 8]⟩
abbrev S2097152x11 : Shape := ⟨2, ![2097152, 11]⟩
abbrev S11x16 : Shape := ⟨2, ![11, 16]⟩
abbrev S2097152x16 : Shape := ⟨2, ![2097152, 16]⟩
abbrev S1x16 : Shape := ⟨2, ![1, 16]⟩
abbrev S16x3 : Shape := ⟨2, ![16, 3]⟩
abbrev S1x3 : Shape := ⟨2, ![1, 3]⟩

abbrev nBuf : Space → Nat
  | .hbm => 202
  | .vmem => 0
  | .smem => 0
  | _ => 0

abbrev hbmTy0_0 (i : Nat) : BufTy := match i % 128 with
  | 0 => ⟨S2097152x2, .f32⟩
  | 1 => ⟨S2097152x3, .f32⟩
  | 2 => ⟨S1x8x2048x2048, .f32⟩
  | 3 => ⟨S16x11, .f32⟩
  | 4 => ⟨S16, .f32⟩
  | 5 => ⟨S16x16, .f32⟩
  | 6 => ⟨S16, .f32⟩
  | 7 => ⟨S3x16, .f32⟩
  | 8 => ⟨S3, .f32⟩
  | 9 => ⟨S8x2048x2048, .f32⟩
  | 10 => ⟨S2048x2048x8, .f32⟩
  | 11 => ⟨S2097152x1, .f32⟩
  | 12 => ⟨S2097152, .f32⟩
  | 13 => ⟨S_, .f32⟩
  | 14 => ⟨S2097152, .f32⟩
  | 15 => ⟨S2097152, .f32⟩
  | 16 => ⟨S_, .f32⟩
  | 17 => ⟨S2097152, .f32⟩
  | 18 => ⟨S2097152, .f32⟩
  | 19 => ⟨S_, .f32⟩
  | 20 => ⟨S2097152, .f32⟩
  | 21 => ⟨S2097152, .f32⟩
  | 22 => ⟨S_, .f32⟩
  | 23 => ⟨S_, .i32⟩
  | 24 => ⟨S_, .f32⟩
  | 25 => ⟨S2097152, .f32⟩
  | 26 => ⟨S2097152, .f32⟩
  | 27 => ⟨S_, .f32⟩
  | 28 => ⟨S2097152, .f32⟩
  | 29 => ⟨S2097152, .f32⟩
  | 30 => ⟨S2097152x1, .f32⟩
  | 31 => ⟨S2097152, .f32⟩
  | 32 => ⟨S_, .f32⟩
  | 33 => ⟨S2097152, .f32⟩
  | 34 => ⟨S2097152, .f32⟩
  | 35 => ⟨S_, .f32⟩
  | 36 => ⟨S2097152, .f32⟩
  | 37 => ⟨S2097152, .f32⟩
  | 38 => ⟨S_, .f32⟩
  | 39 => ⟨S2097152, .f32⟩
  | 40 => ⟨S2097152, .f32⟩
  | 41 => ⟨S_, .f32⟩
  | 42 => ⟨S_, .i32⟩
  | 43 => ⟨S_, .f32⟩
  | 44 => ⟨S2097152, .f32⟩
  | 45 => ⟨S2097152, .f32⟩
  | 46 => ⟨S_, .f32⟩
  | 47 => ⟨S2097152, .f32⟩
  | 48 => ⟨S2097152, .f32⟩
  | 49 => ⟨S2097152, .f32⟩
  | 50 => ⟨S2097152, .f32⟩
  | 51 => ⟨S2097152, .f32⟩
  | 52 => ⟨S2097152x1, .f32⟩
  | 53 => ⟨S2097152, .f32⟩
  | 54 => ⟨S2097152x1, .f32⟩
  | 55 => ⟨S2097152, .i32⟩
  | 56 => ⟨S2097152, .i32⟩
  | 57 => ⟨S_, .i32⟩
  | 58 => ⟨S2097152, .i32⟩
  | 59 => ⟨S2097152, .i32⟩
  | 60 => ⟨S_, .i32⟩
  | 61 => ⟨S2097152, .i32⟩
  | 62 => ⟨S2097152, .i32⟩
  | 63 => ⟨S_, .i32⟩
  | 64 => ⟨S2097152, .i32⟩
  | 65 => ⟨S2097152, .i32⟩
  | 66 => ⟨S_, .i32⟩
  | 67 => ⟨S2097152, .i32⟩
  | 68 => ⟨S2097152, .i32⟩
  | 69 => ⟨S_, .i32⟩
  | 70 => ⟨S2097152, .i32⟩
  | 71 => ⟨S2097152, .i1⟩
  | 72 => ⟨S_, .i32⟩
  | 73 => ⟨S2097152, .i32⟩
  | 74 => ⟨S2097152, .i32⟩
  | 75 => ⟨S2097152, .i32⟩
  | 76 => ⟨S_, .i32⟩
  | 77 => ⟨S2097152, .i32⟩
  | 78 => ⟨S2097152, .i1⟩
  | 79 => ⟨S_, .i32⟩
  | 80 => ⟨S2097152, .i32⟩
  | 81 => ⟨S2097152, .i32⟩
  | 82 => ⟨S2097152, .i32⟩
  | 83 => ⟨S2097152x1, .i32⟩
  | 84 => ⟨S2097152x1, .i32⟩
  | 85 => ⟨S2097152x2, .i32⟩
  | 86 => ⟨S2097152x8, .f32⟩
  | 87 => ⟨S_, .i32⟩
  | 88 => ⟨S2097152, .i32⟩
  | 89 => ⟨S2097152, .i1⟩
  | 90 => ⟨S_, .i32⟩
  | 91 => ⟨S2097152, .i32⟩
  | 92 => ⟨S2097152, .i32⟩
  | 93 => ⟨S2097152, .i32⟩
  | 94 => ⟨S_, .i32⟩
  | 95 => ⟨S2097152, .i32⟩
  | 96 => ⟨S2097152, .i1⟩
  | 97 => ⟨S_, .i32⟩
  | 98 => ⟨S2097152, .i32⟩
  | 99 => ⟨S2097152, .i32⟩
  | 100 => ⟨S2097152, .i32⟩
  | 101 => ⟨S2097152x1, .i32⟩
  | 102 => ⟨S2097152x1, .i32⟩
  | 103 => ⟨S2097152x2, .i32⟩
  | 104 => ⟨S2097152x8, .f32⟩
  | 105 => ⟨S_, .i32⟩
  | 106 => ⟨S2097152, .i32⟩
  | 107 => ⟨S2097152, .i1⟩
  | 108 => ⟨S_, .i32⟩
  | 109 => ⟨S2097152, .i32⟩
  | 110 => ⟨S2097152, .i32⟩
  | 111 => ⟨S2097152, .i32⟩
  | 112 => ⟨S_, .i32⟩
  | 113 => ⟨S2097152, .i32⟩
  | 114 => ⟨S2097152, .i1⟩
  | 115 => ⟨S_, .i32⟩
  | 116 => ⟨S2097152, .i32⟩
  | 117 => ⟨S2097152, .i32⟩
  | 118 => ⟨S2097152, .i32⟩
  | 119 => ⟨S2097152x1, .i32⟩
  | 120 => ⟨S2097152x1, .i32⟩
  | 121 => ⟨S2097152x2, .i32⟩
  | 122 => ⟨S2097152x8, .f32⟩
  | 123 => ⟨S_, .i32⟩
  | 124 => ⟨S2097152, .i32⟩
  | 125 => ⟨S2097152, .i1⟩
  | 126 => ⟨S_, .i32⟩
  | 127 => ⟨S2097152, .i32⟩
  | _ => ⟨S2097152x2, .f32⟩

abbrev hbmTy0_1 (i : Nat) : BufTy := match i % 128 with
  | 0 => ⟨S2097152, .i32⟩
  | 1 => ⟨S2097152, .i32⟩
  | 2 => ⟨S_, .i32⟩
  | 3 => ⟨S2097152, .i32⟩
  | 4 => ⟨S2097152, .i1⟩
  | 5 => ⟨S_, .i32⟩
  | 6 => ⟨S2097152, .i32⟩
  | 7 => ⟨S2097152, .i32⟩
  | 8 => ⟨S2097152, .i32⟩
  | 9 => ⟨S2097152x1, .i32⟩
  | 10 => ⟨S2097152x1, .i32⟩
  | 11 => ⟨S2097152x2, .i32⟩
  | 12 => ⟨S2097152x8, .f32⟩
  | 13 => ⟨S_, .f32⟩
  | 14 => ⟨S2097152x1, .f32⟩
  | 15 => ⟨S2097152x1, .f32⟩
  | 16 => ⟨S2097152x8, .f32⟩
  | 17 => ⟨S2097152x8, .f32⟩
  | 18 => ⟨S_, .f32⟩
  | 19 => ⟨S2097152x1, .f32⟩
  | 20 => ⟨S2097152x1, .f32⟩
  | 21 => ⟨S2097152x8, .f32⟩
  | 22 => ⟨S2097152x8, .f32⟩
  | 23 => ⟨S2097152x8, .f32⟩
  | 24 => ⟨S2097152x8, .f32⟩
  | 25 => ⟨S_, .f32⟩
  | 26 => ⟨S2097152x1, .f32⟩
  | 27 => ⟨S2097152x1, .f32⟩
  | 28 => ⟨S2097152x8, .f32⟩
  | 29 => ⟨S2097152x8, .f32⟩
  | 30 => ⟨S2097152x8, .f32⟩
  | 31 => ⟨S_, .f32⟩
  | 32 => ⟨S2097152x1, .f32⟩
  | 33 => ⟨S2097152x1, .f32⟩
  | 34 => ⟨S2097152x8, .f32⟩
  | 35 => ⟨S2097152x8, .f32⟩
  | 36 => ⟨S2097152x8, .f32⟩
  | 37 => ⟨S2097152x8, .f32⟩
  | 38 => ⟨S2097152x8, .f32⟩
  | 39 => ⟨S2097152x8, .f32⟩
  | 40 => ⟨S2097152x8, .f32⟩
  | 41 => ⟨S2097152x8, .f32⟩
  | 42 => ⟨S2097152x8, .f32⟩
  | 43 => ⟨S2097152x8, .f32⟩
  | 44 => ⟨S2097152x11, .f32⟩
  | 45 => ⟨S11x16, .f32⟩
  | 46 => ⟨S2097152x16, .f32⟩
  | 47 => ⟨S1x16, .f32⟩
  | 48 => ⟨S2097152x16, .f32⟩
  | 49 => ⟨S2097152x16, .f32⟩
  | 50 => ⟨S_, .f32⟩
  | 51 => ⟨S2097152x16, .f32⟩
  | 52 => ⟨S2097152x16, .f32⟩
  | 53 => ⟨S16x16, .f32⟩
  | 54 => ⟨S2097152x16, .f32⟩
  | 55 => ⟨S1x16, .f32⟩
  | 56 => ⟨S2097152x16, .f32⟩
  | 57 => ⟨S2097152x16, .f32⟩
  | 58 => ⟨S_, .f32⟩
  | 59 => ⟨S2097152x16, .f32⟩
  | 60 => ⟨S2097152x16, .f32⟩
  | 61 => ⟨S16x3, .f32⟩
  | 62 => ⟨S2097152x3, .f32⟩
  | 63 => ⟨S1x3, .f32⟩
  | 64 => ⟨S2097152x3, .f32⟩
  | 65 => ⟨S2097152x3, .f32⟩
  | 66 => ⟨S2097152x3, .f32⟩
  | 67 => ⟨S2097152x3, .f32⟩
  | 68 => ⟨S_, .f32⟩
  | 69 => ⟨S2097152x3, .f32⟩
  | 70 => ⟨S2097152x3, .f32⟩
  | 71 => ⟨S_, .f32⟩
  | 72 => ⟨S2097152x3, .f32⟩
  | 73 => ⟨S2097152x3, .f32⟩
  | _ => ⟨S2097152x2, .f32⟩

abbrev hbmTy (i : Nat) : BufTy := match i / 128 with
  | 0 => hbmTy0_0 i
  | 1 => hbmTy0_1 i
  | _ => ⟨S2097152x2, .f32⟩

abbrev bufTy : (tb : Table) → Fin (tcTables nBuf tb) → BufTy
  | .hbm, ⟨i, _⟩ => hbmTy i
  | _, _ => ⟨S2097152x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_v14 : Ref sig .tc := ⟨.hbm, 34, rfl⟩
abbrev main_cst_4 : Ref sig .tc := ⟨.hbm, 35, rfl⟩
abbrev main_v15 : Ref sig .tc := ⟨.hbm, 36, rfl⟩
abbrev main_v16 : Ref sig .tc := ⟨.hbm, 37, rfl⟩
abbrev main_cst_5 : Ref sig .tc := ⟨.hbm, 38, rfl⟩
abbrev main_v17 : Ref sig .tc := ⟨.hbm, 39, rfl⟩
abbrev main_v18 : Ref sig .tc := ⟨.hbm, 40, rfl⟩
abbrev main_cst_6 : Ref sig .tc := ⟨.hbm, 41, rfl⟩
abbrev main_c_7 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_8 : Ref sig .tc := ⟨.hbm, 57, rfl⟩
abbrev main_v28 : Ref sig .tc := ⟨.hbm, 58, rfl⟩
abbrev main_v29 : Ref sig .tc := ⟨.hbm, 59, rfl⟩
abbrev main_c_9 : Ref sig .tc := ⟨.hbm, 60, rfl⟩
abbrev main_v30 : Ref sig .tc := ⟨.hbm, 61, rfl⟩
abbrev main_v31 : Ref sig .tc := ⟨.hbm, 62, rfl⟩
abbrev main_c_10 : Ref sig .tc := ⟨.hbm, 63, rfl⟩
abbrev main_v32 : Ref sig .tc := ⟨.hbm, 64, rfl⟩
abbrev main_v33 : Ref sig .tc := ⟨.hbm, 65, rfl⟩
abbrev main_c_11 : Ref sig .tc := ⟨.hbm, 66, rfl⟩
abbrev main_v34 : Ref sig .tc := ⟨.hbm, 67, rfl⟩
abbrev main_v35 : Ref sig .tc := ⟨.hbm, 68, rfl⟩
abbrev main_c_12 : Ref sig .tc := ⟨.hbm, 69, rfl⟩
abbrev main_v36 : Ref sig .tc := ⟨.hbm, 70, rfl⟩
abbrev main_v37 : Ref sig .tc := ⟨.hbm, 71, rfl⟩
abbrev main_c_13 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_c_14 : Ref sig .tc := ⟨.hbm, 76, rfl⟩
abbrev main_v41 : Ref sig .tc := ⟨.hbm, 77, rfl⟩
abbrev main_v42 : Ref sig .tc := ⟨.hbm, 78, rfl⟩
abbrev main_c_15 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_c_16 : Ref sig .tc := ⟨.hbm, 87, rfl⟩
abbrev main_v50 : Ref sig .tc := ⟨.hbm, 88, rfl⟩
abbrev main_v51 : Ref sig .tc := ⟨.hbm, 89, rfl⟩
abbrev main_c_17 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_c_18 : Ref sig .tc := ⟨.hbm, 94, rfl⟩
abbrev main_v55 : Ref sig .tc := ⟨.hbm, 95, rfl⟩
abbrev main_v56 : Ref sig .tc := ⟨.hbm, 96, rfl⟩
abbrev main_c_19 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_c_20 : Ref sig .tc := ⟨.hbm, 105, rfl⟩
abbrev main_v64 : Ref sig .tc := ⟨.hbm, 106, rfl⟩
abbrev main_v65 : Ref sig .tc := ⟨.hbm, 107, rfl⟩
abbrev main_c_21 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_c_22 : Ref sig .tc := ⟨.hbm, 112, rfl⟩
abbrev main_v69 : Ref sig .tc := ⟨.hbm, 113, rfl⟩
abbrev main_v70 : Ref sig .tc := ⟨.hbm, 114, rfl⟩
abbrev main_c_23 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_c_24 : Ref sig .tc := ⟨.hbm, 123, rfl⟩
abbrev main_v78 : Ref sig .tc := ⟨.hbm, 124, rfl⟩
abbrev main_v79 : Ref sig .tc := ⟨.hbm, 125, rfl⟩
abbrev main_c_25 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_c_26 : Ref sig .tc := ⟨.hbm, 130, rfl⟩
abbrev main_v83 : Ref sig .tc := ⟨.hbm, 131, rfl⟩
abbrev main_v84 : Ref sig .tc := ⟨.hbm, 132, rfl⟩
abbrev main_c_27 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_28 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_cst_29 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_cst_30 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_cst_31 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_call2_cst : Ref sig .tc := ⟨.hbm, 178, rfl⟩
abbrev main_call2_v0 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_call3_cst : Ref sig .tc := ⟨.hbm, 186, rfl⟩
abbrev main_call3_v0 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_cst_32 : Ref sig .tc := ⟨.hbm, 196, rfl⟩
abbrev main_v139 : Ref sig .tc := ⟨.hbm, 197, rfl⟩
abbrev main_v140 : Ref sig .tc := ⟨.hbm, 198, rfl⟩
abbrev main_cst_33 : Ref sig .tc := ⟨.hbm, 199, rfl⟩
abbrev main_v141 : Ref sig .tc := ⟨.hbm, 200, rfl⟩
abbrev main_v142 : Ref sig .tc := ⟨.hbm, 201, rfl⟩

abbrev nD : Nat := 1
abbrev τ : Topo := Topo.v7x

variable {F : FTy → Type} [FloatOps F]

class Facts₀ : Prop where
  shapeCasts_S1x8x2048x2048_S8x2048x2048 : S1x8x2048x2048.ShapeCasts S8x2048x2048
  transposes_S8x2048x2048_S2048x2048x8_1_2_0 : S8x2048x2048.Transposes [1, 2, 0] S2048x2048x8
  slices_S2097152x2_S2097152x1_0_0 : S2097152x2.Slices ![0, 0] S2097152x1
  shapeCasts_S2097152x1_S2097152 : S2097152x1.ShapeCasts S2097152
  bcast_S_S2097152 : S_.BroadcastsInDim S2097152 (![] : Fin 0 → Fin S2097152.rank)
  slices_S2097152x2_S2097152x1_0_1 : S2097152x2.Slices ![0, 1] S2097152x1
  bcast_S2097152_S2097152x1_0 : S2097152.BroadcastsInDim S2097152x1 (![0] : Fin 1 → Fin S2097152x1.rank)
  concatenates_S2097152x1_S2097152x1_S2097152x2_d1 : Shape.Concatenates [S2097152x1, S2097152x1] S2097152x2 1
  bcast_S_S2097152x1 : S_.BroadcastsInDim S2097152x1 (![] : Fin 0 → Fin S2097152x1.rank)
  bcast_S2097152x1_S2097152x8_0_1 : S2097152x1.BroadcastsInDim S2097152x8 (![0, 1] : Fin 2 → Fin S2097152x8.rank)
  concatenates_S2097152x8_S2097152x3_S2097152x11_d1 : Shape.Concatenates [S2097152x8, S2097152x3] S2097152x11 1
  transposes_S16x11_S11x16_1_0 : S16x11.Transposes [1, 0] S11x16
  bcast_S16_S1x16_1 : S16.BroadcastsInDim S1x16 (![1] : Fin 1 → Fin S1x16.rank)
  bcast_S1x16_S2097152x16_0_1 : S1x16.BroadcastsInDim S2097152x16 (![0, 1] : Fin 2 → Fin S2097152x16.rank)
  bcast_S_S2097152x16 : S_.BroadcastsInDim S2097152x16 (![] : Fin 0 → Fin S2097152x16.rank)
  transposes_S16x16_S16x16_1_0 : S16x16.Transposes [1, 0] S16x16
  transposes_S3x16_S16x3_1_0 : S3x16.Transposes [1, 0] S16x3
  bcast_S3_S1x3_1 : S3.BroadcastsInDim S1x3 (![1] : Fin 1 → Fin S1x3.rank)
  bcast_S1x3_S2097152x3_0_1 : S1x3.BroadcastsInDim S2097152x3 (![0, 1] : Fin 2 → Fin S2097152x3.rank)
  bcast_S_S2097152x3 : S_.BroadcastsInDim S2097152x3 (![] : Fin 0 → Fin S2097152x3.rank)
  gather_S2048x2048x8_S2097152x2_S2097152x8_1_01_n_n_01_1_118_wf : GatherDims.WF S2048x2048x8 S2097152x2 S2097152x8 [1] [0, 1] [] [0, 1] [] 1 ![1, 1, 8]
  dot_S2097152x11_S11x16_S2097152x16_1_0_0_1_n_n_wf : DotDims.WF S2097152x11 S11x16 S2097152x16 [1] [0] [0] [1] [] []
  dot_S2097152x16_S16x16_S2097152x16_1_0_0_1_n_n_wf : DotDims.WF S2097152x16 S16x16 S2097152x16 [1] [0] [0] [1] [] []
  dot_S2097152x16_S16x3_S2097152x3_1_0_0_1_n_n_wf : DotDims.WF S2097152x16 S16x3 S2097152x3 [1] [0] [0] [1] [] []

variable [Facts₀]

def gather_S2048x2048x8_S2097152x2_S2097152x8_1_01_n_n_01_1_118 : GatherDims S2048x2048x8 S2097152x2 S2097152x8 where
  offsetDims := [1]
  collapsedSliceDims := [0, 1]
  operandBatchingDims := []
  startIndicesBatchingDims := []
  startIndexMap := [0, 1]
  indexVectorDim := 1
  sliceSizes := ![1, 1, 8]
  wf := gather_S2048x2048x8_S2097152x2_S2097152x8_1_01_n_n_01_1_118_wf
def dot_S2097152x11_S11x16_S2097152x16_1_0_0_1_n_n : DotDims S2097152x11 S11x16 S2097152x16 where
  lhsContracting := [1]
  rhsContracting := [0]
  lhsNonContracting := [0]
  rhsNonContracting := [1]
  lhsBatch := []
  rhsBatch := []
  wf := dot_S2097152x11_S11x16_S2097152x16_1_0_0_1_n_n_wf
def dot_S2097152x16_S16x16_S2097152x16_1_0_0_1_n_n : DotDims S2097152x16 S16x16 S2097152x16 where
  lhsContracting := [1]
  rhsContracting := [0]
  lhsNonContracting := [0]
  rhsNonContracting := [1]
  lhsBatch := []
  rhsBatch := []
  wf := dot_S2097152x16_S16x16_S2097152x16_1_0_0_1_n_n_wf
def dot_S2097152x16_S16x3_S2097152x3_1_0_0_1_n_n : DotDims S2097152x16 S16x3 S2097152x3 where
  lhsContracting := [1]
  rhsContracting := [0]
  lhsNonContracting := [0]
  rhsNonContracting := [1]
  lhsBatch := []
  rhsBatch := []
  wf := dot_S2097152x16_S16x3_S2097152x3_1_0_0_1_n_n_wf

class Facts : Prop extends Facts₀ where

variable [Facts]
-- ==== Proof.MlpSpec.lean ====
/-
  The colour network of one ray, as a function on the extended reals, and the two laws that join the kernel's
  arrangement of its first layer to the reference's.

  A ray carries eleven inputs: eight sampled texture features followed by three view-direction components.
  Three affine layers follow, the first two clamped below at zero, the last passed through the logistic
  function:  rgb = logistic (W3 · relu (W2 · relu (W1 · x + b1) + b2) + b3).

  The kernel never forms the eleven-vector: it multiplies the first eight columns of W1 with the features and
  the last three with the view direction and adds the two products. The reference joins the inputs first and
  contracts over all eleven. The two agree because a sum over eleven terms is the sum over its first eight plus
  the sum over its last three, a fact of any commutative additive monoid, hence of the extended reals with no
  finiteness assumed. The reference also writes each product with the input on the left and the weight on the
  right; multiplication on the extended reals is commutative.
-/
import Idealize.ShloMosaic.PureOps.Ideal
import Idealize.ShloMosaic.PureOps.Ideal.Laws
import Mathlib.Algebra.BigOperators.Fin

noncomputable section

namespace Cert.Mlp

open Idealize.ShloMosaic

/-- The single-precision word of one denotes the real number one. -/
theorem ofBits_one_f32 : Ideal.ofBits .f32 0x3F800000#32 = 1 := by
  simp [Ideal.ofBits, Ideal.ieee, -EReal.coe_mul]; norm_num

/-- An affine layer: row `j` of the weights against the input, plus the bias. -/
def affine {n k : ℕ} (w : Fin n → Fin k → EReal) (b : Fin n → EReal) (x : Fin k → EReal) (j : Fin n) : EReal :=
  (∑ t : Fin k, w j t * x t) + b j

/-- Clamping below at zero. -/
def relu (x : EReal) : EReal := max x 0

/-- The colour of one ray from its eleven inputs. -/
def rgb (w1 : Fin 16 → Fin 11 → EReal) (b1 : Fin 16 → EReal) (w2 : Fin 16 → Fin 16 → EReal) (b2 : Fin 16 → EReal)
    (w3 : Fin 3 → Fin 16 → EReal) (b3 : Fin 3 → EReal) (x : Fin 11 → EReal) (j : Fin 3) : EReal :=
  Ideal.logistic (affine w3 b3 (fun k => relu (affine w2 b2 (fun k' => relu (affine w1 b1 x k')) k)) j)

/-- The eleven inputs of a ray: the features, then the view direction. -/
def joined (f : Fin 8 → EReal) (v : Fin 3 → EReal) : Fin 11 → EReal := Fin.append f v

/-- The first layer as the kernel computes it: the feature columns and the view-direction columns contracted
    separately and added. -/
theorem affine_split (w : Fin 16 → Fin 11 → EReal) (b : Fin 16 → EReal) (f : Fin 8 → EReal) (v : Fin 3 → EReal) (j : Fin 16) :
    ((∑ t : Fin 8, w j (Fin.castAdd 3 t) * f t) + (∑ t : Fin 3, w j (Fin.natAdd 8 t) * v t)) + b j
      = affine w b (joined f v) j := by
  unfold affine joined
  have h := Fin.sum_univ_add (M := EReal) (a := 8) (b := 3) (fun t => w j t * Fin.append f v t)
  simp only [Fin.append_left, Fin.append_right] at h
  exact congrArg (· + b j) h.symm

/-- A layer written with the input on the left of each product, as the reference's contraction has it. -/
theorem affine_comm {n k : ℕ} (w : Fin n → Fin k → EReal) (b : Fin n → EReal) (x : Fin k → EReal) (j : Fin n) :
    (∑ t : Fin k, x t * w j t) + b j = affine w b x j := by
  unfold affine
  simp only [mul_comm]

/-- The logistic function as the reference spells it: one over one plus the exponential of the negation. -/
theorem logistic_expanded (z : EReal) :
    Ideal.div (Ideal.ofBits .f32 0x3F800000#32) (Ideal.ofBits .f32 0x3F800000#32 + Ideal.exp (-z)) = Ideal.logistic z := by
  rw [ofBits_one_f32]; rfl

end Cert.Mlp

end
-- ==== Proof.KernelPayload.lean ====
/-
  The fused call's body, read one element at a time.

  At each grid point the body holds a block of 32768 rays: their eight features and three view-direction
  components, rays along the long axis, and the whole of every weight matrix and bias. It computes three matrix
  products into zero accumulators, adds a bias column after each, clamps the first two results below at zero
  and applies the logistic function to the third. On the extended reals a change of float format is the
  identity and a matrix product into a zero accumulator is the plain sum over the contracted axis, so entry
  `(j, q)` of the stored block depends only on column `q` of the two input blocks:

    logistic (Σ_k W3[j,k] · relu (Σ_k' W2[k,k'] · relu ((Σ_t W1f[k',t]·feat[t,q] + Σ_t W1v[k',t]·vd[t,q]) + b1[k']) + b2[k]) + b3[j]).

  The lemmas below read each non-pointwise operation at an index — a bias vector turned into a column and
  broadcast along the rays, a matrix product — and `stored_apply` assembles them.
-/
import proofs.«101103_j82695300317371_2_alg».proof.Proof.Gen.KernelIdeal.Skeleton
import proofs.«101103_j82695300317371_2_alg».proof.Proof.MlpSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Mlp

/-! ## A bias vector as a column, broadcast along the rays -/

/-- A vector of length `a` cast to an `[a, 1]` column reads, at `(i, 0)`, the vector at `i`. -/
theorem column_cast {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `(p, 0)`. -/
theorem column_broadcast {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sixteen-entry bias as the body adds it: entry `(j, q)` is the bias at `j`, whatever the ray. -/
theorem bias16_apply (v : FVec Ideal S16 .f32) (j : Fin 16) (q : Fin 32768) :
    broadcastTo S16x32768 (shapeCast S16x1 v shapeCasts_S16_S16x1) broadcasts_S16x1_S16x32768 (ix2 j q) = v (ix1 j) :=
  (column_broadcast _ broadcasts_S16x1_S16x32768 j q).trans (column_cast v shapeCasts_S16_S16x1 j 0)

/-- The three-entry bias likewise. -/
theorem bias3_apply (v : FVec Ideal S3 .f32) (j : Fin 3) (q : Fin 32768) :
    broadcastTo S3x32768 (shapeCast S3x1 v shapeCasts_S3_S3x1) broadcasts_S3x1_S3x32768 (ix2 j q) = v (ix1 j) :=
  (column_broadcast _ broadcasts_S3x1_S3x32768 j q).trans (column_cast v shapeCasts_S3_S3x1 j 0)

/-! ## A matrix product into a zero accumulator, read at an entry -/

/-- For a product of an `[M, K]` by a `[K, N]` matrix whose dimension numbers contract the left operand's second
    axis with the right operand's first (the four coordinate facts), entry `(j, q)` of the product into a zero
    accumulator is the sum over `k` of left `(j, k)` times right `(k, q)`. -/
theorem product_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (l0 : ∀ i q, (D.lhsIdx i q ⟨0, Nat.zero_lt_two⟩).val = (i ⟨0, Nat.zero_lt_two⟩).val)
    (l1 : ∀ i q, (D.lhsIdx i q ⟨1, Nat.one_lt_two⟩).val = (q ⟨0, by omega⟩).val)
    (r0 : ∀ i q, (D.rhsIdx i q ⟨0, Nat.zero_lt_two⟩).val = (q ⟨0, by omega⟩).val)
    (r1 : ∀ i q, (D.rhsIdx i q ⟨1, Nat.one_lt_two⟩).val = (i ⟨1, Nat.one_lt_two⟩).val)
    (L : FVec Ideal ⟨2, ![M, K]⟩ φ₁) (R : FVec Ideal ⟨2, ![K, N]⟩ φ₂) (j : Fin M) (q : Fin N) :
    matmul D none L R (constant (F := Ideal) ⟨2, ![M, N]⟩ .f32 0x00000000#32) (ix2 j q) = ∑ k : Fin K, L (ix2 j k) * R (ix2 k q) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 j q) ((contrEquiv1 D K hr hs).symm k) = ix2 j k := funext fun a => Fin.ext (by
    match a with
    | ⟨0, _⟩ => exact l0 _ _
    | ⟨1, _⟩ => exact (l1 _ _).trans hk)
  have er : D.rhsIdx (ix2 j q) ((contrEquiv1 D K hr hs).symm k) = ix2 k q := funext fun a => Fin.ext (by
    match a with
    | ⟨0, _⟩ => exact (r0 _ _).trans hk
    | ⟨1, _⟩ => exact r1 _ _)
  rw [el, er]

/-- The first layer's product of the feature columns of the weights with the features. -/
theorem w1f_product (L : FVec Ideal S16x8 .bf16) (R : FVec Ideal S8x32768 .bf16) (j : Fin 16) (q : Fin 32768) :
    matmul dot_S16x8_S8x32768_S16x32768_1_0_0_1_n_n none L R (constant (F := Ideal) S16x32768 .f32 0x00000000#32) (ix2 j q)
      = ∑ k : Fin 8, L (ix2 j k) * R (ix2 k q) :=
  product_apply dot_S16x8_S8x32768_S16x32768_1_0_0_1_n_n rfl rfl
    (fun i q => by
      unfold DotDims.lhsIdx
      rw [dif_neg (show ¬(⟨0, Nat.zero_lt_two⟩ : Fin S16x8.rank) ∈ dot_S16x8_S8x32768_S16x32768_1_0_0_1_n_n.lhsBatch by decide),
        dif_pos (show (⟨0, Nat.zero_lt_two⟩ : Fin S16x8.rank) ∈ dot_S16x8_S8x32768_S16x32768_1_0_0_1_n_n.lhsNonContracting by decide)]
      rfl)
    (fun i q => dot_S16x8_S8x32768_S16x32768_1_0_0_1_n_n.lhsIdx_val_of_single rfl i q)
    (fun i q => dot_S16x8_S8x32768_S16x32768_1_0_0_1_n_n.rhsIdx_val_of_single rfl i q)
    (fun i q => by
      unfold DotDims.rhsIdx
      rw [dif_neg (show ¬(⟨1, Nat.one_lt_two⟩ : Fin S8x32768.rank) ∈ dot_S16x8_S8x32768_S16x32768_1_0_0_1_n_n.rhsBatch by decide),
        dif_pos (show (⟨1, Nat.one_lt_two⟩ : Fin S8x32768.rank) ∈ dot_S16x8_S8x32768_S16x32768_1_0_0_1_n_n.rhsNonContracting by decide)]
      rfl)
    L R j q

/-- The first layer's product of the view-direction columns of the weights with the view directions. -/
theorem w1v_product (L : FVec Ideal S16x3 .bf16) (R : FVec Ideal S3x32768 .bf16) (j : Fin 16) (q : Fin 32768) :
    matmul dot_S16x3_S3x32768_S16x32768_1_0_0_1_n_n none L R (constant (F := Ideal) S16x32768 .f32 0x00000000#32) (ix2 j q)
      = ∑ k : Fin 3, L (ix2 j k) * R (ix2 k q) :=
  product_apply dot_S16x3_S3x32768_S16x32768_1_0_0_1_n_n rfl rfl
    (fun i q => by
      unfold DotDims.lhsIdx
      rw [dif_neg (show ¬(⟨0, Nat.zero_lt_two⟩ : Fin S16x3.rank) ∈ dot_S16x3_S3x32768_S16x32768_1_0_0_1_n_n.lhsBatch by decide),
        dif_pos (show (⟨0, Nat.zero_lt_two⟩ : Fin S16x3.rank) ∈ dot_S16x3_S3x32768_S16x32768_1_0_0_1_n_n.lhsNonContracting by decide)]
      rfl)
    (fun i q => dot_S16x3_S3x32768_S16x32768_1_0_0_1_n_n.lhsIdx_val_of_single rfl i q)
    (fun i q => dot_S16x3_S3x32768_S16x32768_1_0_0_1_n_n.rhsIdx_val_of_single rfl i q)
    (fun i q => by
      unfold DotDims.rhsIdx
      rw [dif_neg (show ¬(⟨1, Nat.one_lt_two⟩ : Fin S3x32768.rank) ∈ dot_S16x3_S3x32768_S16x32768_1_0_0_1_n_n.rhsBatch by decide),
        dif_pos (show (⟨1, Nat.one_lt_two⟩ : Fin S3x32768.rank) ∈ dot_S16x3_S3x32768_S16x32768_1_0_0_1_n_n.rhsNonContracting by decide)]
      rfl)
    L R j q

/-- The second layer's product. -/
theorem w2_product (L : FVec Ideal S16x16 .bf16) (R : FVec Ideal S16x32768 .bf16) (j : Fin 16) (q : Fin 32768) :
    matmul dot_S16x16_S16x32768_S16x32768_1_0_0_1_n_n none L R (constant (F := Ideal) S16x32768 .f32 0x00000000#32) (ix2 j q)
      = ∑ k : Fin 16, L (ix2 j k) * R (ix2 k q) :=
  product_apply dot_S16x16_S16x32768_S16x32768_1_0_0_1_n_n rfl rfl
    (fun i q => by
      unfold DotDims.lhsIdx
      rw [dif_neg (show ¬(⟨0, Nat.zero_lt_two⟩ : Fin S16x16.rank) ∈ dot_S16x16_S16x32768_S16x32768_1_0_0_1_n_n.lhsBatch by decide),
        dif_pos (show (⟨0, Nat.zero_lt_two⟩ : Fin S16x16.rank) ∈ dot_S16x16_S16x32768_S16x32768_1_0_0_1_n_n.lhsNonContracting by decide)]
      rfl)
    (fun i q => dot_S16x16_S16x32768_S16x32768_1_0_0_1_n_n.lhsIdx_val_of_single rfl i q)
    (fun i q => dot_S16x16_S16x32768_S16x32768_1_0_0_1_n_n.rhsIdx_val_of_single rfl i q)
    (fun i q => by
      unfold DotDims.rhsIdx
      rw [dif_neg (show ¬(⟨1, Nat.one_lt_two⟩ : Fin S16x32768.rank) ∈ dot_S16x16_S16x32768_S16x32768_1_0_0_1_n_n.rhsBatch by decide),
        dif_pos (show (⟨1, Nat.one_lt_two⟩ : Fin S16x32768.rank) ∈ dot_S16x16_S16x32768_S16x32768_1_0_0_1_n_n.rhsNonContracting by decide)]
      rfl)
    L R j q

/-- The third layer's product. -/
theorem w3_product (L : FVec Ideal S3x16 .bf16) (R : FVec Ideal S16x32768 .bf16) (j : Fin 3) (q : Fin 32768) :
    matmul dot_S3x16_S16x32768_S3x32768_1_0_0_1_n_n none L R (constant (F := Ideal) S3x32768 .f32 0x00000000#32) (ix2 j q)
      = ∑ k : Fin 16, L (ix2 j k) * R (ix2 k q) :=
  product_apply dot_S3x16_S16x32768_S3x32768_1_0_0_1_n_n rfl rfl
    (fun i q => by
      unfold DotDims.lhsIdx
      rw [dif_neg (show ¬(⟨0, Nat.zero_lt_two⟩ : Fin S3x16.rank) ∈ dot_S3x16_S16x32768_S3x32768_1_0_0_1_n_n.lhsBatch by decide),
        dif_pos (show (⟨0, Nat.zero_lt_two⟩ : Fin S3x16.rank) ∈ dot_S3x16_S16x32768_S3x32768_1_0_0_1_n_n.lhsNonContracting by decide)]
      rfl)
    (fun i q => dot_S3x16_S16x32768_S3x32768_1_0_0_1_n_n.lhsIdx_val_of_single rfl i q)
    (fun i q => dot_S3x16_S16x32768_S3x32768_1_0_0_1_n_n.rhsIdx_val_of_single rfl i q)
    (fun i q => by
      unfold DotDims.rhsIdx
      rw [dif_neg (show ¬(⟨1, Nat.one_lt_two⟩ : Fin S16x32768.rank) ∈ dot_S3x16_S16x32768_S3x32768_1_0_0_1_n_n.rhsBatch by decide),
        dif_pos (show (⟨1, Nat.one_lt_two⟩ : Fin S16x32768.rank) ∈ dot_S3x16_S16x32768_S3x32768_1_0_0_1_n_n.rhsNonContracting by decide)]
      rfl)
    L R j q

/-! ## The stored block, one entry at a time -/

/-- The scalar zero the body clamps against denotes zero. -/
theorem clamp_word : (Scalar.ofBits (F := Ideal) .f32 0x00000000#32 : EReal) = 0 := Ideal.ofBits_zero_f32

/-- Entry `(j, q)` of the block the body stores, from the blocks it loaded: the three layers applied to column `q`
    of the feature and view-direction blocks, the first layer in its split form. -/
theorem stored_apply (x0 : FVec Ideal S8x32768 .f32) (x1 : FVec Ideal S3x32768 .f32) (x2 : FVec Ideal S16x8 .f32)
    (x3 : FVec Ideal S16x3 .f32) (x4 : FVec Ideal S16 .f32) (x5 : FVec Ideal S16x16 .f32) (x6 : FVec Ideal S16 .f32)
    (x7 : FVec Ideal S3x16 .f32) (x8 : FVec Ideal S3 .f32) (j : Fin 3) (q : Fin 32768) :
    k0_pay1 (F := Ideal) (k0_pay2 x0 x1 x2 x3 x4 x5 x6 x7) (k0_pay3 x8) (ix2 j q)
      = Ideal.logistic (affine (fun a t => x7 (ix2 a t)) (fun a => x8 (ix1 a))
          (fun k => relu (affine (fun a t => x5 (ix2 a t)) (fun a => x6 (ix1 a))
            (fun k' => relu (((∑ t : Fin 8, x2 (ix2 k' t) * x0 (ix2 t q)) + (∑ t : Fin 3, x3 (ix2 k' t) * x1 (ix2 t q))) + x4 (ix1 k'))) k)) j) := by
  unfold k0_pay1 k0_pay2 k0_pay3
  simp only [logistic, addf_apply, maximumf_apply, truncf_apply, broadcast_apply, shapeCast_self,
    w3_product, w2_product, w1f_product, w1v_product, bias16_apply, bias3_apply, clamp_word, Ideal.logistic_def]
  rfl

end Cert.KernelIdeal.Body

end
-- ==== Proof.KernelArray.lean ====
/-
  From the body's blocks to the whole result array of the fused call.

  The fused call runs at 64 grid points. At point `t` it reads columns `32768·t … 32768·t + 32767` of the
  transposed features and of the transposed view directions — the rays of that block — and the whole of every
  weight matrix and bias, and writes back the same columns of the three-row result. Since entry `(j, q)` of the
  stored block depends only on column `q` of the two ray blocks, the block written back at point `t` is the
  restriction to those columns of ONE function of the arrays the region was entered with: at row `j` and ray
  `b`, the colour network in its split form applied to column `b`. The 64 blocks tile the result (ray `b`
  lies in block `b / 32768`), so the result array ends holding that function everywhere.
-/
import proofs.«101103_j82695300317371_2_alg».proof.Proof.Gen.KernelIdeal.Frame
import proofs.«101103_j82695300317371_2_alg».proof.Proof.KernelPayload
import Idealize.ShloMosaic.Lib.Pipeline.Value

set_option maxRecDepth 16384

noncomputable section

namespace Cert.KernelIdeal.Blocks

open Cert.KernelIdeal Cert.KernelIdeal.Gen Cert.KernelIdeal.Body Cert.Mlp
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

theorem zeros2 : (![0, 0] : Fin 2 → Nat) = fun _ => 0 := funext fun a => by fin_cases a <;> rfl
theorem zeros1 : (![0] : Fin 1 → Nat) = fun _ => 0 := funext fun a => by fin_cases a <;> rfl

/-! ## The function the result array ends holding -/

/-- The colour of ray `b`, channel `j`, from the arrays the fused call stages: transposed features `A0`,
    transposed view directions `A1`, the two column groups of the first weight matrix `A2`, `A3`, and the
    remaining weights and biases. The first layer is in the kernel's split form. -/
def colourAt (A0 : S8x2097152.Idx → EReal) (A1 : S3x2097152.Idx → EReal) (A2 : S16x8.Idx → EReal) (A3 : S16x3.Idx → EReal)
    (A4 : S16.Idx → EReal) (A5 : S16x16.Idx → EReal) (A6 : S16.Idx → EReal) (A7 : S3x16.Idx → EReal) (A8 : S3.Idx → EReal)
    (j : Fin 3) (b : Fin 2097152) : EReal :=
  Ideal.logistic (affine (fun a s => A7 (ix2 a s)) (fun a => A8 (ix1 a))
    (fun k => relu (affine (fun a s => A5 (ix2 a s)) (fun a => A6 (ix1 a))
      (fun k' => relu (((∑ s : Fin 8, A2 (ix2 k' s) * A0 (ix2 s b)) + (∑ s : Fin 3, A3 (ix2 k' s) * A1 (ix2 s b))) + A4 (ix1 k'))) k)) j)

/-- The same as an array of shape `[3, 2097152]`. -/
def colourT (A0 : S8x2097152.Idx → EReal) (A1 : S3x2097152.Idx → EReal) (A2 : S16x8.Idx → EReal) (A3 : S16x3.Idx → EReal)
    (A4 : S16.Idx → EReal) (A5 : S16x16.Idx → EReal) (A6 : S16.Idx → EReal) (A7 : S3x16.Idx → EReal) (A8 : S3.Idx → EReal) :
    S3x2097152.Idx → EReal := fun i => colourAt A0 A1 A2 A3 A4 A5 A6 A7 A8 (i 0) (i 1)

/-- The arrays as the region finds them, in the fused call's operand order. -/
abbrev staged (c : Dev nD) : S3x2097152.Idx → EReal :=
  colourT (V m c main_v119) (V m c main_v120) (V m c main_v121) (V m c main_v122) (V m c main_arg4) (V m c main_arg5)
    (V m c main_arg6) (V m c main_arg7) (V m c main_arg8)

/-! ## The index maps, decided over the 64 points -/

/-- Ray `q` of block `t`. -/
def ray (t : Fin cfg0.N) (q : Fin 32768) : Fin 2097152 :=
  ⟨t.val * 32768 + q.val, by have h : t.val < 64 := Nat.lt_of_lt_of_eq t.isLt N_0; have := q.isLt; omega⟩

/-- The two ray windows and the result window move along the rays with the point; every weight and bias window
    stays at its one block. -/
theorem index_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = t.val :=
  (by decide +kernel : ∀ t : Fin grid0.N, _)

/-! ## Each staged block, read where it lies in its array -/

theorem read0 (c : Dev nD) (t : Fin cfg0.N) (s : Fin 8) (q : Fin 32768) :
    (iblk m c 0 t : Vec Ideal S8x32768 .f32) (ix2 s q) = V m c main_v119 (ix2 s (ray t q)) := by
  obtain ⟨e0, e1, -⟩ := index_facts t
  show V m c main_v119 (((cfg0.win 0).blk t).view.emb (ix2 s q)) = V m c main_v119 (ix2 s (ray t q))
  refine congrArg (V m c main_v119) (funext fun a => Fin.ext ?_)
  match a with
  | ⟨0, _⟩ => show win0_0.index t (0 : Fin 2) * 8 + 1 * s.val = s.val; omega
  | ⟨1, _⟩ => show win0_0.index t (1 : Fin 2) * 32768 + 1 * q.val = t.val * 32768 + q.val; omega

theorem read1 (c : Dev nD) (t : Fin cfg0.N) (s : Fin 3) (q : Fin 32768) :
    (iblk m c 1 t : Vec Ideal S3x32768 .f32) (ix2 s q) = V m c main_v120 (ix2 s (ray t q)) := by
  obtain ⟨-, -, e0, e1, -⟩ := index_facts t
  show V m c main_v120 (((cfg0.win 1).blk t).view.emb (ix2 s q)) = V m c main_v120 (ix2 s (ray t q))
  refine congrArg (V m c main_v120) (funext fun a => Fin.ext ?_)
  match a with
  | ⟨0, _⟩ => show win0_1.index t (0 : Fin 2) * 3 + 1 * s.val = s.val; omega
  | ⟨1, _⟩ => show win0_1.index t (1 : Fin 2) * 32768 + 1 * q.val = t.val * 32768 + q.val; omega

theorem read2 (c : Dev nD) (t : Fin cfg0.N) (a : Fin 16) (s : Fin 8) :
    (iblk m c 2 t : Vec Ideal S16x8 .f32) (ix2 a s) = V m c main_v121 (ix2 a s) := by
  obtain ⟨-, -, -, -, e0, e1, -⟩ := index_facts t
  show V m c main_v121 (((cfg0.win 2).blk t).view.emb (ix2 a s)) = V m c main_v121 (ix2 a s)
  refine congrArg (V m c main_v121) (funext fun d => Fin.ext ?_)
  match d with
  | ⟨0, _⟩ => show win0_2.index t (0 : Fin 2) * 16 + 1 * a.val = a.val; omega
  | ⟨1, _⟩ => show win0_2.index t (1 : Fin 2) * 8 + 1 * s.val = s.val; omega

theorem read3 (c : Dev nD) (t : Fin cfg0.N) (a : Fin 16) (s : Fin 3) :
    (iblk m c 3 t : Vec Ideal S16x3 .f32) (ix2 a s) = V m c main_v122 (ix2 a s) := by
  obtain ⟨-, -, -, -, -, -, e0, e1, -⟩ := index_facts t
  show V m c main_v122 (((cfg0.win 3).blk t).view.emb (ix2 a s)) = V m c main_v122 (ix2 a s)
  refine congrArg (V m c main_v122) (funext fun d => Fin.ext ?_)
  match d with
  | ⟨0, _⟩ => show win0_3.index t (0 : Fin 2) * 16 + 1 * a.val = a.val; omega
  | ⟨1, _⟩ => show win0_3.index t (1 : Fin 2) * 3 + 1 * s.val = s.val; omega

theorem read4 (c : Dev nD) (t : Fin cfg0.N) (a : Fin 16) :
    (iblk m c 4 t : Vec Ideal S16 .f32) (ix1 a) = V m c main_arg4 (ix1 a) := by
  obtain ⟨-, -, -, -, -, -, -, -, e0, -⟩ := index_facts t
  show V m c main_arg4 (((cfg0.win 4).blk t).view.emb (ix1 a)) = V m c main_arg4 (ix1 a)
  refine congrArg (V m c main_arg4) (funext fun d => Fin.ext ?_)
  match d with
  | ⟨0, _⟩ => show win0_4.index t (0 : Fin 1) * 16 + 1 * a.val = a.val; omega

theorem read5 (c : Dev nD) (t : Fin cfg0.N) (a : Fin 16) (s : Fin 16) :
    (iblk m c 5 t : Vec Ideal S16x16 .f32) (ix2 a s) = V m c main_arg5 (ix2 a s) := by
  obtain ⟨-, -, -, -, -, -, -, -, -, e0, e1, -⟩ := index_facts t
  show V m c main_arg5 (((cfg0.win 5).blk t).view.emb (ix2 a s)) = V m c main_arg5 (ix2 a s)
  refine congrArg (V m c main_arg5) (funext fun d => Fin.ext ?_)
  match d with
  | ⟨0, _⟩ => show win0_5.index t (0 : Fin 2) * 16 + 1 * a.val = a.val; omega
  | ⟨1, _⟩ => show win0_5.index t (1 : Fin 2) * 16 + 1 * s.val = s.val; omega

theorem read6 (c : Dev nD) (t : Fin cfg0.N) (a : Fin 16) :
    (iblk m c 6 t : Vec Ideal S16 .f32) (ix1 a) = V m c main_arg6 (ix1 a) := by
  obtain ⟨-, -, -, -, -, -, -, -, -, -, -, e0, -⟩ := index_facts t
  show V m c main_arg6 (((cfg0.win 6).blk t).view.emb (ix1 a)) = V m c main_arg6 (ix1 a)
  refine congrArg (V m c main_arg6) (funext fun d => Fin.ext ?_)
  match d with
  | ⟨0, _⟩ => show win0_6.index t (0 : Fin 1) * 16 + 1 * a.val = a.val; omega

theorem read7 (c : Dev nD) (t : Fin cfg0.N) (a : Fin 3) (s : Fin 16) :
    (iblk m c 7 t : Vec Ideal S3x16 .f32) (ix2 a s) = V m c main_arg7 (ix2 a s) := by
  obtain ⟨-, -, -, -, -, -, -, -, -, -, -, -, e0, e1, -⟩ := index_facts t
  show V m c main_arg7 (((cfg0.win 7).blk t).view.emb (ix2 a s)) = V m c main_arg7 (ix2 a s)
  refine congrArg (V m c main_arg7) (funext fun d => Fin.ext ?_)
  match d with
  | ⟨0, _⟩ => show win0_7.index t (0 : Fin 2) * 3 + 1 * a.val = a.val; omega
  | ⟨1, _⟩ => show win0_7.index t (1 : Fin 2) * 16 + 1 * s.val = s.val; omega

theorem read8 (c : Dev nD) (t : Fin cfg0.N) (a : Fin 3) :
    (iblk m c 8 t : Vec Ideal S3 .f32) (ix1 a) = V m c main_arg8 (ix1 a) := by
  obtain ⟨-, -, -, -, -, -, -, -, -, -, -, -, -, -, e0, -⟩ := index_facts t
  show V m c main_arg8 (((cfg0.win 8).blk t).view.emb (ix1 a)) = V m c main_arg8 (ix1 a)
  refine congrArg (V m c main_arg8) (funext fun d => Fin.ext ?_)
  match d with
  | ⟨0, _⟩ => show win0_8.index t (0 : Fin 1) * 3 + 1 * a.val = a.val; omega

/-- Entry `(j, q)` of the result window's block at point `t` lies at row `j`, ray `q` of block `t`. -/
theorem place9 (t : Fin cfg0.N) (j : Fin 3) (q : Fin 32768) :
    ((cfg0.win 9).blk t).view.emb (ix2 j q) = ix2 j (ray t q) := by
  obtain ⟨-, -, -, -, -, -, -, -, -, -, -, -, -, -, -, e0, e1⟩ := index_facts t
  funext a
  apply Fin.ext
  match a with
  | ⟨0, _⟩ => show win0_9.index t (0 : Fin 2) * 3 + 1 * j.val = j.val; omega
  | ⟨1, _⟩ => show win0_9.index t (1 : Fin 2) * 32768 + 1 * q.val = t.val * 32768 + q.val; omega

/-! ## What each point writes back, and the whole array -/

/-- WHAT POINT `t` WRITES BACK is block `t` of the one function `staged`. -/
theorem flushed_eq (c : Dev nD) (t : Fin cfg0.N) :
    (dats m 0 c).flushed 9 t = ((cfg0.win 9).blk t).view.read (Elt Ideal) (staged m c) := by
  show (cfg0.win 9).cut (grid0.coords t) ((dats m 0 c).after 9 t) = _
  rw [after0_9]
  unfold out0_9
  rw [View.canon_unit_zero zeros2]
  simp only [View.ld_unit_zero (S := S8x32768) zeros2, View.ld_unit_zero (S := S3x32768) zeros2,
    View.ld_unit_zero (S := S16x8) zeros2, View.ld_unit_zero (S := S16x3) zeros2, View.ld_unit_zero (S := S16) zeros1,
    View.ld_unit_zero (S := S16x16) zeros2, View.ld_unit_zero (S := S3x16) zeros2, View.ld_unit_zero (S := S3) zeros1]
  funext y
  obtain ⟨j, q, rfl⟩ : ∃ (j : Fin 3) (q : Fin 32768), y = ix2 j q := ⟨y 0, y 1, eq_ix2 y⟩
  refine (stored_apply (iblk m c 0 t) (iblk m c 1 t) (iblk m c 2 t) (iblk m c 3 t) (iblk m c 4 t) (iblk m c 5 t)
    (iblk m c 6 t) (iblk m c 7 t) (iblk m c 8 t) j q).trans ?_
  simp only [read0, read1, read2, read3, read4, read5, read6, read7, read8]
  show _ = staged m c (((cfg0.win 9).blk t).view.emb (ix2 j q))
  rw [place9]
  rfl

/-- An index of the result array is in point `t`'s block iff each coordinate is in the block's range. -/
theorem mem_block (t : Fin cfg0.N) (i : S3x2097152.Idx) :
    i ∈ ((cfg0.win 9).blk t).view.set ↔ ∀ a : Fin 2, win0_9.index t a * S3x32768.size a ≤ (i a).val ∧ (i a).val < win0_9.index t a * S3x32768.size a + S3x32768.size a := by
  show i ∈ ((View.whole main_v123).slice (win0_9.rect t)).set ↔ _
  rw [View.set_slice_whole, Rect.mem_set_unit]
  exact Iff.rfl

/-- The 64 blocks tile the result: ray `b` lies in block `b / 32768`. -/
theorem covered (i : S3x2097152.Idx) : ∃ t : Fin cfg0.N, (cfg0.win 9).flush t = true ∧ i ∈ ((cfg0.win 9).blk t).view.set := by
  have hj : (i 0).val < 3 := (i 0).isLt
  have hb : (i 1).val < 2097152 := (i 1).isLt
  have hN : cfg0.N = 64 := N_0
  let t : Fin cfg0.N := ⟨(i 1).val / 32768, by rw [hN]; omega⟩
  obtain ⟨-, -, -, -, -, -, -, -, -, -, -, -, -, -, -, e0, e1⟩ := index_facts t
  have ht : t.val = (i 1).val / 32768 := rfl
  refine ⟨t, flush0_9 t, ?_⟩
  rw [mem_block]
  intro a
  match a with
  | ⟨0, _⟩ => show win0_9.index t (0 : Fin 2) * 3 ≤ (i 0).val ∧ (i 0).val < win0_9.index t (0 : Fin 2) * 3 + 3; omega
  | ⟨1, _⟩ => show win0_9.index t (1 : Fin 2) * 32768 ≤ (i 1).val ∧ (i 1).val < win0_9.index t (1 : Fin 2) * 32768 + 32768; omega

/-- THE RESULT ARRAY of the fused call after the run: the colour of every ray, channels along the rows. -/
theorem final (c : Dev nD) : (dats m 0 c).arrAt 9 cfg0.N = staged m c :=
  (dats m 0 c).arrAt_eq_of_cover 9 (staged m c) (fun t _ => flushed_eq m c t) (covered)

end Cert.KernelIdeal.Blocks

end
-- ==== Proof.KernelHost.lean ====
/-
  The other operands of the fused call, as the region finds them, and how each reads at an index.

  Besides the transposed features the host program hands the fused call the transposed view directions and the
  first weight matrix cut into its first eight and last three columns; the remaining weights and biases are the
  program's own arguments, untouched. A transposed array at `(s, b)` is the array at `(b, s)`; the first column
  group at `(a, s)` is the matrix at `(a, s)`, the second at `(a, 8 + s)`.
-/
import proofs.«101103_j82695300317371_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.HostSide

open Cert.KernelIdeal Cert.KernelIdeal.Gen Idealize.ShloMosaic Idealize.ShloMosaic.ValueIdx Idealize.ShloMosaic.TcCoe Idealize.SL.Sem Idealize.ShloMosaic.StableHlo

variable (m : (ℓ : Loc nD τ sig) → Buf (Elt Ideal) ℓ)

set_option maxRecDepth 16384 in
set_option maxHeartbeats 4000000 in
/-- The second operand is the transpose of the view directions. -/
theorem vdT_entry (c : Dev nD) :
    V (F := Ideal) m c main_v120
      = transpose S3x2097152 [1, 0] (m ((c : Thread nD τ).loc main_arg1)) transposes_S2097152x3_S3x2097152_1_0 := by
  dsimp only [V, V0]
  simp only [hostOps0, hostOps0_1, hostOps0_2, hostOps0_3, hostOps0_4, List.flatten_cons, List.flatten_nil, List.append_nil, List.cons_append, List.nil_append]
  after_results_simp <;> rfl

set_option maxRecDepth 16384 in
set_option maxHeartbeats 4000000 in
/-- The third operand is the first eight columns of the first weight matrix. -/
theorem w1f_entry (c : Dev nD) :
    V (F := Ideal) m c main_v121
      = extractStridedSlice S16x8 ![0, 0] (m ((c : Thread nD τ).loc main_arg3)) slices_S16x11_S16x8_0_0 := by
  dsimp only [V, V0]
  simp only [hostOps0, hostOps0_1, hostOps0_2, hostOps0_3, hostOps0_4, List.flatten_cons, List.flatten_nil, List.append_nil, List.cons_append, List.nil_append]
  after_results_simp <;> rfl

set_option maxRecDepth 16384 in
set_option maxHeartbeats 4000000 in
/-- The fourth operand is its last three columns. -/
theorem w1v_entry (c : Dev nD) :
    V (F := Ideal) m c main_v122
      = extractStridedSlice S16x3 ![0, 8] (m ((c : Thread nD τ).loc main_arg3)) slices_S16x11_S16x3_0_8 := by
  dsimp only [V, V0]
  simp only [hostOps0, hostOps0_1, hostOps0_2, hostOps0_3, hostOps0_4, List.flatten_cons, List.flatten_nil, List.append_nil, List.cons_append, List.nil_append]
  after_results_simp <;> rfl

/-! ## Read at an index -/

/-- A transposed `[B, n]` array at `(s, b)` is the array at `(b, s)`. -/
theorem transposed_apply {α : Type} {B n : ℕ} (x : (⟨2, ![B, n]⟩ : Shape).Idx → α)
    (h : (⟨2, ![B, n]⟩ : Shape).Transposes [1, 0] ⟨2, ![n, B]⟩) (s : Fin n) (b : Fin B) :
    transpose ⟨2, ![n, B]⟩ [1, 0] x h (ix2 s b) = x (ix2 b s) :=
  transpose_apply [1, 0] x h (ix2 s b) (ix2 b s) (fun a => match a with
    | ⟨0, _⟩ => rfl
    | ⟨1, _⟩ => rfl)

/-- The first eight columns of a `[16, 11]` matrix. -/
theorem firstCols_apply {α : Type} (x : S16x11.Idx → α) (a : Fin 16) (s : Fin 8) :
    extractStridedSlice S16x8 ![0, 0] x slices_S16x11_S16x8_0_0 (ix2 a s) = x (ix2 a (Fin.castAdd 3 s)) :=
  extractStridedSlice_apply ![0, 0] x slices_S16x11_S16x8_0_0 (ix2 a s) (ix2 a (Fin.castAdd 3 s)) (fun d => match d with
    | ⟨0, _⟩ => by show a.val = 0 + a.val; omega
    | ⟨1, _⟩ => by show s.val = 0 + s.val; omega)

/-- The last three. -/
theorem lastCols_apply {α : Type} (x : S16x11.Idx → α) (a : Fin 16) (s : Fin 3) :
    extractStridedSlice S16x3 ![0, 8] x slices_S16x11_S16x3_0_8 (ix2 a s) = x (ix2 a (Fin.natAdd 8 s)) :=
  extractStridedSlice_apply ![0, 8] x slices_S16x11_S16x3_0_8 (ix2 a s) (ix2 a (Fin.natAdd 8 s)) (fun d => match d with
    | ⟨0, _⟩ => by show a.val = 0 + a.val; omega
    | ⟨1, _⟩ => by show 8 + s.val = 8 + s.val; rfl)

end Cert.KernelIdeal.HostSide

end
-- ==== Proof.KernelFeat.lean ====
/-
  The sampled features as the kernel finds them.

  Before its one fused call the kernel's host program samples the texture bilinearly at every ray's texture
  coordinate — the coordinate scaled to the texel grid and clamped, its floor and fractional part, the four
  neighbouring texels gathered, and their blend by the fractional parts — and then transposes the resulting
  rays-by-eight array so that the rays lie along the long axis. The reference's host program begins with exactly
  the same operations on the same two arguments. This module records that coincidence once: the array the fused
  call is handed as its first operand is the transpose of the reference's sampled-feature stage, as a function of
  the texture coordinates and the texture. The sampling itself is never opened: both programs apply the same
  composition of operations, and the two spellings are compared as they stand.
-/
import proofs.«101103_j82695300317371_2_alg».proof.Proof.Gen.KernelIdeal.Frame
import proofs.«101103_j82695300317371_2_alg».proof.Proof.Gen.ReferenceIdeal.Read
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo

set_option maxRecDepth 16384 in
set_option maxHeartbeats 77200000 in
/-- The fused call's first operand, as the region finds it, is the transpose of the sampled features: entry
    `(k, b)` is feature `k` of ray `b`. -/
theorem featT_entry (m : (ℓ : Loc nD τ sig) → Buf (Elt Ideal) ℓ) (c : Dev nD) :
    V (F := Ideal) m c main_v119
      = transpose S8x2097152 [1, 0]
          (Cert.ReferenceIdeal.Read.val_main_v118 (F := Ideal) (m ((c : Thread nD τ).loc main_arg0)) (m ((c : Thread nD τ).loc main_arg2)))
          transposes_S2097152x8_S8x2097152_1_0 := by
  dsimp only [V, V0]
  simp only [hostOps0, hostOps0_1, hostOps0_2, hostOps0_3, hostOps0_4, List.flatten_cons, List.flatten_nil, List.append_nil, List.cons_append, List.nil_append]
  after_results_simp <;> rfl

end Cert.KernelIdeal.HostSide

end
-- ==== Proof.RefColour.lean ====
/-
  The reference's result, read one element at a time.

  After sampling the features the reference joins each ray's eight features and three view-direction components
  into eleven inputs, and applies three dense layers as products against the transposed weight matrices, each
  followed by a bias row; the first two are clamped below at zero and the last is passed through the logistic
  function, spelt as one over one plus the exponential of the negation. Read at ray `b` and channel `j`, every
  product is a sum over its contracted axis, every transposed weight is the weight at the swapped index, every
  broadcast bias is the bias at the channel, and the joined inputs are the features followed by the view
  direction. What is left is the colour network of MlpSpec at ray `b`'s inputs, with each product written input
  first — which commutativity of multiplication on the extended reals sets right.
-/
import proofs.«101103_j82695300317371_2_alg».proof.Proof.Gen.ReferenceIdeal.Read
import proofs.«101103_j82695300317371_2_alg».proof.Proof.MlpSpec
import Idealize.ShloMosaic.Lib.ValueIdx
import Idealize.ShloMosaic.Lib.Pipeline.Value
import Idealize.ShloMosaic.PureOps.Ideal.Laws

noncomputable section

namespace Cert.ReferenceIdeal.Colour

open Cert.ReferenceIdeal Cert.ReferenceIdeal.Gen Cert.ReferenceIdeal.Read Idealize.ShloMosaic Idealize.ShloMosaic.ValueIdx Cert.Mlp

/-- A rank-two array as a function of its two coordinates. -/
abbrev mat {n0 n1 : ℕ} (x : (⟨2, ![n0, n1]⟩ : Shape).Idx → EReal) : Fin n0 → Fin n1 → EReal := fun a t => x (ix2 a t)

/-- A rank-one array as a function of its coordinate. -/
abbrev vec {n : ℕ} (x : (⟨1, ![n]⟩ : Shape).Idx → EReal) : Fin n → EReal := fun a => x (ix1 a)

/-- Ray `b`'s eleven inputs in the reference: the joined array's row `b`. -/
theorem inputs_apply (x0 : (⟨S2097152x2, .f32⟩ : BufTy).Contents (Elt Ideal)) (x1 : (⟨S2097152x3, .f32⟩ : BufTy).Contents (Elt Ideal))
    (x2 : (⟨S1x8x2048x2048, .f32⟩ : BufTy).Contents (Elt Ideal)) (b : Fin 2097152) :
    (fun s : Fin 11 => val_main_v119 (F := Ideal) x0 x1 x2 (ix2 b s))
      = joined (fun t => val_main_v118 (F := Ideal) x0 x2 (ix2 b t)) (fun t => x1 (ix2 b t)) := by
  funext s
  unfold val_main_v119 joined
  refine Fin.addCases (m := 8) (n := 3) (fun t => ?_) (fun t => ?_) s
  · rw [Fin.append_left]
    exact concatenate_pair_apply_left (1 : Fin S2097152x11.rank) _ _ concatenates_S2097152x8_S2097152x3_S2097152x11_d1 _ rfl (ix2 b t)
      (fun a => match a with
        | ⟨0, _⟩ => rfl
        | ⟨1, _⟩ => rfl)
  · rw [Fin.append_right]
    exact concatenate_pair_apply_right (1 : Fin S2097152x11.rank) _ _ concatenates_S2097152x8_S2097152x3_S2097152x11_d1 _ rfl rfl (ix2 b t)
      (fun a ha => match a, ha with
        | ⟨0, _⟩, _ => rfl
        | ⟨1, _⟩, ha => absurd rfl ha)
      (by show t.val + 8 = 8 + t.val; omega)

/-! ## The three layers at a ray -/

section
variable (x0 : (⟨S2097152x2, .f32⟩ : BufTy).Contents (Elt Ideal)) (x1 : (⟨S2097152x3, .f32⟩ : BufTy).Contents (Elt Ideal))
  (x2 : (⟨S1x8x2048x2048, .f32⟩ : BufTy).Contents (Elt Ideal)) (x3 : (⟨S16x11, .f32⟩ : BufTy).Contents (Elt Ideal))
  (x4 : (⟨S16, .f32⟩ : BufTy).Contents (Elt Ideal)) (x5 : (⟨S16x16, .f32⟩ : BufTy).Contents (Elt Ideal))
  (x6 : (⟨S16, .f32⟩ : BufTy).Contents (Elt Ideal)) (x7 : (⟨S3x16, .f32⟩ : BufTy).Contents (Elt Ideal))
  (x8 : (⟨S3, .f32⟩ : BufTy).Contents (Elt Ideal))

/-- Ray `b`'s eleven inputs: its sampled features, then its view direction. -/
abbrev inputs (b : Fin 2097152) : Fin 11 → EReal :=
  joined (fun t => val_main_v118 (F := Ideal) x0 x2 (ix2 b t)) (fun t => x1 (ix2 b t))

/-- The first hidden layer of ray `b` at unit `k'`. -/
theorem layer1_apply (b : Fin 2097152) (k' : Fin 16) :
    val_main_v125 (F := Ideal) x0 x1 x2 x3 x4 (ix2 b k') = relu (affine (mat x3) (vec x4) (inputs x0 x1 x2 b) k') := by
  have eL : ∀ t : Fin 11, lidx_main_v121 (ix2 b k') t = ix2 b t := fun t => funext fun a => Fin.ext (by
    match a with
    | ⟨0, _⟩ => rfl
    | ⟨1, _⟩ => rfl)
  have eR : ∀ t : Fin 11, idx_main_v120 (ridx_main_v121 (ix2 b k') t) = ix2 k' t := fun t => funext fun a => Fin.ext (by
    match a with
    | ⟨0, _⟩ => rfl
    | ⟨1, _⟩ => rfl)
  have eB : idx_main_v122 (idx_main_v123 (ix2 b k')) = ix1 k' := funext fun a => Fin.ext (by
    match a with
    | ⟨0, _⟩ => rfl)
  have hin := congrFun (inputs_apply x0 x1 x2 b)
  rw [val_main_v125_apply, val_main_v124_apply, val_main_v121_apply, val_main_v123_apply, val_main_v122_apply,
    val_main_call2_v0_apply, val_main_call2_cst_apply, eB]
  simp only [val_main_v120_apply, eL, eR, hin]
  exact congrArg₂ max (affine_comm (mat x3) (vec x4) _ k') Ideal.ofBits_zero_f32

/-- The second hidden layer of ray `b` at unit `k`. -/
theorem layer2_apply (b : Fin 2097152) (k : Fin 16) :
    val_main_v131 (F := Ideal) x0 x1 x2 x3 x4 x5 x6 (ix2 b k)
      = relu (affine (mat x5) (vec x6) (fun k' => relu (affine (mat x3) (vec x4) (inputs x0 x1 x2 b) k')) k) := by
  have eL : ∀ t : Fin 16, lidx_main_v127 (ix2 b k) t = ix2 b t := fun t => funext fun a => Fin.ext (by
    match a with
    | ⟨0, _⟩ => rfl
    | ⟨1, _⟩ => rfl)
  have eR : ∀ t : Fin 16, idx_main_v126 (ridx_main_v127 (ix2 b k) t) = ix2 k t := fun t => funext fun a => Fin.ext (by
    match a with
    | ⟨0, _⟩ => rfl
    | ⟨1, _⟩ => rfl)
  have eB : idx_main_v128 (idx_main_v129 (ix2 b k)) = ix1 k := funext fun a => Fin.ext (by
    match a with
    | ⟨0, _⟩ => rfl)
  rw [val_main_v131_apply, val_main_v130_apply, val_main_v127_apply, val_main_v129_apply, val_main_v128_apply,
    val_main_call3_v0_apply, val_main_call3_cst_apply, eB]
  simp only [val_main_v126_apply, eL, eR, layer1_apply]
  exact congrArg₂ max (affine_comm (mat x5) (vec x6) _ k) Ideal.ofBits_zero_f32

/-- THE REFERENCE'S RESULT at ray `b` and channel `j`: the colour network at ray `b`'s inputs. -/
theorem result_apply (b : Fin 2097152) (j : Fin 3) :
    val_main_v142 (F := Ideal) x0 x1 x2 x3 x4 x5 x6 x7 x8 (ix2 b j)
      = rgb (mat x3) (vec x4) (mat x5) (vec x6) (mat x7) (vec x8) (inputs x0 x1 x2 b) j := by
  have eL : ∀ t : Fin 16, lidx_main_v133 (ix2 b j) t = ix2 b t := fun t => funext fun a => Fin.ext (by
    match a with
    | ⟨0, _⟩ => rfl
    | ⟨1, _⟩ => rfl)
  have eR : ∀ t : Fin 16, idx_main_v132 (ridx_main_v133 (ix2 b j) t) = ix2 j t := fun t => funext fun a => Fin.ext (by
    match a with
    | ⟨0, _⟩ => rfl
    | ⟨1, _⟩ => rfl)
  have eB : idx_main_v134 (idx_main_v135 (ix2 b j)) = ix1 j := funext fun a => Fin.ext (by
    match a with
    | ⟨0, _⟩ => rfl)
  rw [val_main_v142_apply, val_main_v141_apply, val_main_cst_33_apply, val_main_v140_apply, val_main_v139_apply,
    val_main_cst_32_apply, val_main_v138_apply, val_main_v137_apply, val_main_v136_apply, val_main_v133_apply,
    val_main_v135_apply, val_main_v134_apply, eB]
  simp only [val_main_v132_apply, eL, eR, layer2_apply]
  unfold rgb
  rw [← affine_comm]
  exact logistic_expanded _

end

end Cert.ReferenceIdeal.Colour

end
-- ==== Proof.KernelResult.lean ====
/-
  The kernel's result is the reference's.

  After the fused call the kernel's host program transposes the three-row result back to rays-by-three. Entry
  `(b, j)` of the final array is therefore the fused call's result at `(j, b)`: the colour network in its split
  form at column `b` of the staged operands. Those operands are the transposed sampled features, the transposed
  view directions, the two column groups of the first weight matrix and the untouched remaining arguments, so
  column `b` holds ray `b`'s features and view direction, and the split first layer is the joined one (a sum
  over eleven is the sum over its first eight plus the sum over its last three). The reference's result at
  `(b, j)` is the same network at the same inputs. Hence the two final arrays are one function of the arguments.
-/
import proofs.«101103_j82695300317371_2_alg».proof.Proof.KernelArray
import proofs.«101103_j82695300317371_2_alg».proof.Proof.KernelHost
import proofs.«101103_j82695300317371_2_alg».proof.Proof.KernelFeat
import proofs.«101103_j82695300317371_2_alg».proof.Proof.RefColour
import Idealize.ShloMosaic.Lib.StableHlo.Run

set_option maxRecDepth 16384

noncomputable section

namespace Cert.KernelIdeal.Result

open Cert.KernelIdeal Cert.KernelIdeal.Gen Cert.KernelIdeal.Blocks Cert.KernelIdeal.HostSide Cert.Mlp
open Idealize.ShloMosaic Idealize.ShloMosaic.ValueIdx Idealize.ShloMosaic.TcCoe Idealize.SL.Sem Idealize.ShloMosaic.StableHlo
open Cert.ReferenceIdeal.Colour (mat vec inputs)

variable (m : (ℓ : Loc nD τ sig) → Buf (Elt Ideal) ℓ)

/-- The reference's result stage at the kernel's own arguments: what both programs end holding. -/
abbrev expected (c : Dev nD) : S2097152x3.Idx → EReal :=
  Cert.ReferenceIdeal.Read.val_main_v142 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-- The transposed features at `(s, b)` are the features at `(b, s)`. -/
theorem featT_apply (x : S2097152x8.Idx → EReal) (s : Fin 8) (b : Fin 2097152) :
    transpose S8x2097152 [1, 0] x transposes_S2097152x8_S8x2097152_1_0 (ix2 s b) = x (ix2 b s) :=
  transposed_apply x transposes_S2097152x8_S8x2097152_1_0 s b

/-- The transposed view directions likewise. -/
theorem vdT_apply (x : S2097152x3.Idx → EReal) (s : Fin 3) (b : Fin 2097152) :
    transpose S3x2097152 [1, 0] x transposes_S2097152x3_S3x2097152_1_0 (ix2 s b) = x (ix2 b s) :=
  transposed_apply x transposes_S2097152x3_S3x2097152_1_0 s b

/-- The final transpose: entry `(b, j)` is the fused call's result at `(j, b)`. -/
theorem outT_apply (x : S3x2097152.Idx → EReal) (b : Fin 2097152) (j : Fin 3) :
    transpose S2097152x3 [1, 0] x transposes_S3x2097152_S2097152x3_1_0 (ix2 b j) = x (ix2 j b) :=
  transposed_apply x transposes_S3x2097152_S2097152x3_1_0 b j

/-- The split form at the staged operands — transposed features and view directions, the two column groups of the
    first weight matrix — is the colour network at ray `b`'s joined inputs. -/
theorem colourAt_staged (feat : S2097152x8.Idx → EReal) (x1 : S2097152x3.Idx → EReal) (x3 : S16x11.Idx → EReal) (x4 : S16.Idx → EReal)
    (x5 : S16x16.Idx → EReal) (x6 : S16.Idx → EReal) (x7 : S3x16.Idx → EReal) (x8 : S3.Idx → EReal) (j : Fin 3) (b : Fin 2097152) :
    colourAt (transpose S8x2097152 [1, 0] feat transposes_S2097152x8_S8x2097152_1_0)
        (transpose S3x2097152 [1, 0] x1 transposes_S2097152x3_S3x2097152_1_0)
        (extractStridedSlice S16x8 ![0, 0] x3 slices_S16x11_S16x8_0_0) (extractStridedSlice S16x3 ![0, 8] x3 slices_S16x11_S16x3_0_8)
        x4 x5 x6 x7 x8 j b
      = rgb (mat x3) (vec x4) (mat x5) (vec x6) (mat x7) (vec x8) (joined (fun t => feat (ix2 b t)) (fun t => x1 (ix2 b t))) j := by
  unfold colourAt rgb
  have hf : ∀ s : Fin 8, transpose S8x2097152 [1, 0] feat transposes_S2097152x8_S8x2097152_1_0 (ix2 s b) = feat (ix2 b s) :=
    fun s => featT_apply feat s b
  have hv : ∀ s : Fin 3, transpose S3x2097152 [1, 0] x1 transposes_S2097152x3_S3x2097152_1_0 (ix2 s b) = x1 (ix2 b s) :=
    fun s => vdT_apply x1 s b
  simp only [hf, hv, firstCols_apply, lastCols_apply, ← affine_split]
  all_goals rfl

/-- The fused call's result at channel `j`, ray `b`, is the colour network at ray `b`'s inputs. -/
theorem staged_apply (c : Dev nD) (j : Fin 3) (b : Fin 2097152) :
    staged m c (ix2 j b)
      = rgb (mat (m ((c : Thread nD τ).loc main_arg3))) (vec (m ((c : Thread nD τ).loc main_arg4)))
          (mat (m ((c : Thread nD τ).loc main_arg5))) (vec (m ((c : Thread nD τ).loc main_arg6)))
          (mat (m ((c : Thread nD τ).loc main_arg7))) (vec (m ((c : Thread nD τ).loc main_arg8)))
          (inputs (m ((c : Thread nD τ).loc main_arg0)) (m ((c : Thread nD τ).loc main_arg1)) (m ((c : Thread nD τ).loc main_arg2)) b) j := by
  show colourAt (V m c main_v119) (V m c main_v120) (V m c main_v121) (V m c main_v122) (V m c main_arg4) (V m c main_arg5)
    (V m c main_arg6) (V m c main_arg7) (V m c main_arg8) j b = _
  rw [featT_entry, vdT_entry, w1f_entry, w1v_entry, V_main_arg4, V_main_arg5, V_main_arg6, V_main_arg7, V_main_arg8]
  exact colourAt_staged _ _ _ _ _ _ _ _ j b

/-- THE KERNEL'S FINAL ARRAY — the transpose, by the host, of the fused call's result — is the reference's result
    stage at the same arguments. -/
theorem result_eq (c : Dev nD) :
    Pipeline.afterTail₀ cfgs (dats m) 0 (V0 m) [hostOps1] c main_v124 = expected m c := by
  unfold Pipeline.afterTail₀
  show StableHlo.after hostOps1 _ (Proc.devRef .tc main_v124) = _
  after_results
  have hw : Pipeline.withArrays (cfgs 0).spec c (V0 m c) (fun w => (dats m 0 c).arrAt w (cfgs 0).N) (Proc.devRef .tc main_v123)
      = staged m c :=
    (Pipeline.withArrays_arr spec0 launch0.win.arr_inj c _ _ 9).trans (final m c)
  rw [hw]
  funext i
  obtain ⟨b, j, rfl⟩ : ∃ (b : Fin 2097152) (j : Fin 3), i = ix2 b j := ⟨i 0, i 1, eq_ix2 i⟩
  rw [outT_apply, staged_apply]
  exact (Cert.ReferenceIdeal.Colour.result_apply _ _ _ _ _ _ _ _ _ b j).symm

end Cert.KernelIdeal.Result

end
-- ==== Proof.lean ====
/-
  A neural texture: every ray samples eight features bilinearly from a texture at its texture coordinate, joins
  them with its three view-direction components, and passes the eleven numbers through a small network — two
  hidden layers of sixteen units clamped below at zero, and three outputs through the logistic function.

  The kernel and the reference sample the texture with the same host operations. They differ afterwards: the
  reference multiplies the rays-by-eleven input matrix by the transposed weights layer by layer on the host; the
  kernel transposes features and view directions so that the rays lie along the long axis, hands them with the
  first weight matrix cut into its feature columns and its view-direction columns to ONE fused call over 64 blocks
  of 32768 rays, and transposes the three-row result back. Over the extended reals — every float operation the
  exact one, format changes the identity — the two results are equal entry by entry, with no assumption on the
  inputs beyond the claim's own: a matrix product is a finite sum of products, a sum over eleven terms splits
  into its first eight and last three, multiplication commutes, clamping at zero and the logistic function are
  the same functions on both sides (the reference spells the logistic function as one over one plus the
  exponential of the negation, which is its definition).

  The modules: MlpSpec (the network on the extended reals and the two laws), KernelPayload (the fused call's
  body at one entry), KernelArray (from the 64 written-back blocks to the whole result), KernelFeat and KernelHost
  (the operands the host hands the fused call), RefColour (the reference's result at one entry), KernelResult
  (the two final arrays are one function of the arguments). Here the five conjuncts are assembled: the three
  programs run and leave their arguments unchanged; the idealization rewrote nothing; and the two idealized
  programs, from memories agreeing on the arguments, end with equal results.
-/
import proofs.«101103_j82695300317371_2_alg».proof.Defs
import proofs.«101103_j82695300317371_2_alg».proof.Proof.Gen.Kernel
import proofs.«101103_j82695300317371_2_alg».proof.Proof.Gen.Kernel.Skeleton
import proofs.«101103_j82695300317371_2_alg».proof.Proof.Gen.Kernel.Launch
import proofs.«101103_j82695300317371_2_alg».proof.Proof.Gen.Kernel.Points
import proofs.«101103_j82695300317371_2_alg».proof.Proof.Gen.Kernel.Frame
import proofs.«101103_j82695300317371_2_alg».proof.Proof.Gen.KernelIdeal
import proofs.«101103_j82695300317371_2_alg».proof.Proof.Gen.KernelIdeal.Skeleton
import proofs.«101103_j82695300317371_2_alg».proof.Proof.Gen.KernelIdeal.Launch
import proofs.«101103_j82695300317371_2_alg».proof.Proof.Gen.KernelIdeal.Points
import proofs.«101103_j82695300317371_2_alg».proof.Proof.Gen.KernelIdeal.Frame
import proofs.«101103_j82695300317371_2_alg».proof.Proof.Gen.ReferenceIdeal
import proofs.«101103_j82695300317371_2_alg».proof.Proof.Gen.ReferenceIdeal.Run
import proofs.«101103_j82695300317371_2_alg».proof.Proof.Gen.ReferenceIdeal.Read
import proofs.«101103_j82695300317371_2_alg».proof.Proof.Gen.Pre_finite_inputs
import proofs.«101103_j82695300317371_2_alg».proof.Proof.KernelResult
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

section KernelRun
open Cert.KernelIdeal Cert.KernelIdeal.Gen Cert.KernelIdeal.Result

/-- The idealized kernel's run with its final array named: the reference's result stage at the kernel's own
    arguments; the arguments end unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v124) = expected m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v124 (Pipeline.mem_restRefs_of main_v124 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩)
    (run_main m ρ)

end KernelRun

/-- From memories agreeing on the arguments the two idealized programs end with equal results: the kernel's final
    array is the reference's result stage at the kernel's arguments, and the reference's run ends at that stage
    of its own arguments, which are the same. -/
theorem algebraic : Cert.algebraic_KernelIdeal_ReferenceIdeal := by
  intro m ρ m' ρ' _ hagree
  refine ⟨fun c => Cert.KernelIdeal.Result.expected m c, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v142_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
